-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x10 .f32) (main_arg8 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg7
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 149
  | .vmem => 18
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S_, .f32⟩
  | 15 => ⟨S1600000, .f32⟩
  | 16 => ⟨S1600000, .f32⟩
  | 17 => ⟨S_, .f32⟩
  | 18 => ⟨S1600000, .f32⟩
  | 19 => ⟨S1600000, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S100000, .i32⟩
  | 54 => ⟨S1700000, .i32⟩
  | 55 => ⟨S1700000, .i32⟩
  | 56 => ⟨S_, .f32⟩
  | 57 => ⟨S100000, .f32⟩
  | 58 => ⟨S1700000, .f32⟩
  | 59 => ⟨S_, .f32⟩
  | 60 => ⟨S100000, .f32⟩
  | 61 => ⟨S1700000x1, .i32⟩
  | 62 => ⟨S100000, .f32⟩
  | 63 => ⟨S_, .f32⟩
  | 64 => ⟨S100000, .f32⟩
  | 65 => ⟨S100000, .i1⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000, .f32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .f32⟩
  | 92 => ⟨S1x64, .f32⟩
  | 93 => ⟨S100000x128, .bf16⟩
  | 94 => ⟨S128x64, .bf16⟩
  | 95 => ⟨S100000x64, .f32⟩
  | 96 => ⟨S1700000x1, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S1x64, .f32⟩
  | 120 => ⟨S100000x64, .bf16⟩
  | 121 => ⟨S64x64, .bf16⟩
  | 122 => ⟨S100000x64, .f32⟩
  | 123 => ⟨S1700000x1, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S1x10, .f32⟩
  | 18 => ⟨S100000x64, .bf16⟩
  | 19 => ⟨S64x10, .bf16⟩
  | 20 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .bf16⟩
  | .local _ .vmem, ⟨7, _⟩ => ⟨S10000x64, .bf16⟩
  | .local _ .vmem, ⟨8, _⟩ => ⟨S64x64, .bf16⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .bf16⟩
  | .local _ .vmem, ⟨13, _⟩ => ⟨S10000x64, .bf16⟩
  | .local _ .vmem, ⟨14, _⟩ => ⟨S64x10, .bf16⟩
  | .local _ .vmem, ⟨15, _⟩ => ⟨S1x10, .f32⟩
  | .local _ .vmem, ⟨16, _⟩ => ⟨S10000x10, .f32⟩
  | .local _ .vmem, ⟨17, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_call1_v0 : Ref sig .tc := ⟨.hbm, 68, rfl⟩
abbrev main_call1_v1 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call2_cst : Ref sig .tc := ⟨.hbm, 115, rfl⟩
abbrev main_call2_v0 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_20 : Ref sig .tc := ⟨.hbm, 124, rfl⟩
abbrev main_v87 : Ref sig .tc := ⟨.hbm, 125, rfl⟩
abbrev main_v88 : Ref sig .tc := ⟨.hbm, 126, rfl⟩
abbrev main_c_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call3_cst : Ref sig .tc := ⟨.hbm, 142, rfl⟩
abbrev main_call3_v0 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000_S_d0 : S1600000.ReducesTo [0] S_
  h_S_ : 0 < S_.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S1x64 : S_.BroadcastsInDim S1x64 (![] : Fin 0 → Fin S1x64.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .bf16 = 32 ∨ (Rect.block (s := S64x10) S64x10.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x10.size a ≤ S100000x10.size a
  hwx2_3 : ∀ i : grid2.Coords, EltTy.bits .f32 = 32 ∨ (Rect.block (s := S100000x10) S10000x10.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_v62) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v104) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v105) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v106) S10000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S_, .f32⟩
  | 15 => ⟨S1600000, .f32⟩
  | 16 => ⟨S1600000, .f32⟩
  | 17 => ⟨S_, .f32⟩
  | 18 => ⟨S1600000, .f32⟩
  | 19 => ⟨S1600000, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S100000, .i32⟩
  | 54 => ⟨S1700000, .i32⟩
  | 55 => ⟨S1700000, .i32⟩
  | 56 => ⟨S_, .f32⟩
  | 57 => ⟨S100000, .f32⟩
  | 58 => ⟨S1700000, .f32⟩
  | 59 => ⟨S_, .f32⟩
  | 60 => ⟨S100000, .f32⟩
  | 61 => ⟨S1700000x1, .i32⟩
  | 62 => ⟨S100000, .f32⟩
  | 63 => ⟨S_, .f32⟩
  | 64 => ⟨S100000, .f32⟩
  | 65 => ⟨S100000, .i1⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000, .f32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S100000x64, .f32⟩
  | 92 => ⟨S1700000x1, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x64, .f32⟩
  | 103 => ⟨S1700000x64, .f32⟩
  | 104 => ⟨S_, .f32⟩
  | 105 => ⟨S100000x64, .f32⟩
  | 106 => ⟨S1700000x1, .i32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S1700000x1, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x10, .f32⟩
  | 10 => ⟨S1x10, .f32⟩
  | 11 => ⟨S100000x10, .f32⟩
  | 12 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_call1_v0 : Ref sig .tc := ⟨.hbm, 68, rfl⟩
abbrev main_call1_v1 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_cst : Ref sig .tc := ⟨.hbm, 111, rfl⟩
abbrev main_call2_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call3_cst : Ref sig .tc := ⟨.hbm, 134, rfl⟩
abbrev main_call3_v0 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000_S_d0 : S1600000.ReducesTo [0] S_
  h_S_ : 0 < S_.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.SimDefs.lean ====
/-
  Setting for comparing the two programs' host operations line by line. The kernel program's buffers and the
  reference's are two different tables; a valuation gives every buffer of one table its contents. The reference's 132
  operations are read in slices (the operations from position a, n of them) and in prefixes (the first n); running a
  slice after a prefix is running the longer prefix. No operation of the reference writes an argument's buffer, so
  every prefix leaves the arguments as they were.
-/
import proofs.«163706_j46858093199625_1_alg».proof.Proof.Gen.KernelIdeal.Launch
import proofs.«163706_j46858093199625_1_alg».proof.Proof.RefOps
import Idealize.ShloMosaic.Lib.StableHlo.Run
import Idealize.ShloMosaic.PureOps.Ideal.Laws

noncomputable section

namespace Cert.Sim

open Idealize.ShloMosaic Idealize.ShloMosaic.TcCoe Idealize.SL.Sem
open Idealize.ShloMosaic.StableHlo
open Cert.ReferenceIdeal.ValueP (ops)

/-- Contents of the kernel program's buffers. -/
abbrev KV := Valuation Cert.KernelIdeal.τ Cert.KernelIdeal.sig (Elt Ideal)
/-- Contents of the reference's buffers. -/
abbrev RV := Valuation Cert.ReferenceIdeal.τ Cert.ReferenceIdeal.sig (Elt Ideal)
abbrev RL := List (HloOp Cert.ReferenceIdeal.τ Cert.ReferenceIdeal.sig (Elt Ideal))

/-- Running two lines of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The reference's operations from position a, n of them. -/
abbrev slice (a n : Nat) : RL := ((ops (F := Ideal)).drop a).take n

/-- The reference's buffers after its first n operations. -/
def Rpre (Vr : RV) (n : Nat) : RV := after ((ops (F := Ideal)).take n) Vr

theorem Rpre_zero (Vr : RV) : Rpre Vr 0 = Vr := rfl

theorem Rpre_step (Vr : RV) (a n : Nat) : after (slice a n) (Rpre Vr a) = Rpre Vr (a + n) := by
  unfold Rpre slice
  rw [List.take_add, after_append]

theorem Rpre_all (Vr : RV) : Rpre Vr 132 = after (ops (F := Ideal)) Vr := by
  have h : (ops (F := Ideal)).length ≤ 132 := Nat.le_of_eq rfl
  unfold Rpre
  rw [List.take_of_length_le h]

/-! ## The arguments are never written -/

set_option maxRecDepth 16384 in
theorem arg0_not_written : (ops (F := Ideal)).Forall fun op => (Proc.devRef .tc Cert.ReferenceIdeal.main_arg0) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg0 (Vr : RV) (n : Nat) : Rpre Vr n (Proc.devRef .tc Cert.ReferenceIdeal.main_arg0) = Vr (Proc.devRef .tc Cert.ReferenceIdeal.main_arg0) :=
  after_of_forall_not_mem _ _ fun op h => (List.forall_iff_forall_mem.mp arg0_not_written) op (List.mem_of_mem_take h)

set_option maxRecDepth 16384 in
theorem arg3_not_written : (ops (F := Ideal)).Forall fun op => (Proc.devRef .tc Cert.ReferenceIdeal.main_arg3) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg3 (Vr : RV) (n : Nat) : Rpre Vr n (Proc.devRef .tc Cert.ReferenceIdeal.main_arg3) = Vr (Proc.devRef .tc Cert.ReferenceIdeal.main_arg3) :=
  after_of_forall_not_mem _ _ fun op h => (List.forall_iff_forall_mem.mp arg3_not_written) op (List.mem_of_mem_take h)

set_option maxRecDepth 16384 in
theorem arg4_not_written : (ops (F := Ideal)).Forall fun op => (Proc.devRef .tc Cert.ReferenceIdeal.main_arg4) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg4 (Vr : RV) (n : Nat) : Rpre Vr n (Proc.devRef .tc Cert.ReferenceIdeal.main_arg4) = Vr (Proc.devRef .tc Cert.ReferenceIdeal.main_arg4) :=
  after_of_forall_not_mem _ _ fun op h => (List.forall_iff_forall_mem.mp arg4_not_written) op (List.mem_of_mem_take h)

set_option maxRecDepth 16384 in
theorem arg5_not_written : (ops (F := Ideal)).Forall fun op => (Proc.devRef .tc Cert.ReferenceIdeal.main_arg5) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg5 (Vr : RV) (n : Nat) : Rpre Vr n (Proc.devRef .tc Cert.ReferenceIdeal.main_arg5) = Vr (Proc.devRef .tc Cert.ReferenceIdeal.main_arg5) :=
  after_of_forall_not_mem _ _ fun op h => (List.forall_iff_forall_mem.mp arg5_not_written) op (List.mem_of_mem_take h)

set_option maxRecDepth 16384 in
theorem arg6_not_written : (ops (F := Ideal)).Forall fun op => (Proc.devRef .tc Cert.ReferenceIdeal.main_arg6) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg6 (Vr : RV) (n : Nat) : Rpre Vr n (Proc.devRef .tc Cert.ReferenceIdeal.main_arg6) = Vr (Proc.devRef .tc Cert.ReferenceIdeal.main_arg6) :=
  after_of_forall_not_mem _ _ fun op h => (List.forall_iff_forall_mem.mp arg6_not_written) op (List.mem_of_mem_take h)

set_option maxRecDepth 16384 in
theorem arg7_not_written : (ops (F := Ideal)).Forall fun op => (Proc.devRef .tc Cert.ReferenceIdeal.main_arg7) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg7 (Vr : RV) (n : Nat) : Rpre Vr n (Proc.devRef .tc Cert.ReferenceIdeal.main_arg7) = Vr (Proc.devRef .tc Cert.ReferenceIdeal.main_arg7) :=
  after_of_forall_not_mem _ _ fun op h => (List.forall_iff_forall_mem.mp arg7_not_written) op (List.mem_of_mem_take h)

set_option maxRecDepth 16384 in
theorem arg8_not_written : (ops (F := Ideal)).Forall fun op => (Proc.devRef .tc Cert.ReferenceIdeal.main_arg8) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem Rpre_arg8 (Vr : RV) (n : Nat) : Rpre Vr n (Proc.devRef .tc Cert.ReferenceIdeal.main_arg8) = Vr (Proc.devRef .tc Cert.ReferenceIdeal.main_arg8) :=
  after_of_forall_not_mem _ _ fun op h => (List.forall_iff_forall_mem.mp arg8_not_written) op (List.mem_of_mem_take h)

/-- The two programs are launched on the same arguments. -/
structure Agree (Vk : KV) (Vr : RV) : Prop where
  a0 : Vk (Proc.devRef .tc Cert.KernelIdeal.main_arg0) = Vr (Proc.devRef .tc Cert.ReferenceIdeal.main_arg0)
  a1 : Vk (Proc.devRef .tc Cert.KernelIdeal.main_arg1) = Vr (Proc.devRef .tc Cert.ReferenceIdeal.main_arg1)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

end Cert.Sim

end
-- ==== Proof.RefRun.lean ====
/-
  The reference's run. Its @main is a straight line of 132 host operations, so every weakly fair execution
  terminates with each buffer at the operations' fold over the launch contents. No operation writes an argument's
  buffer, so the arguments end as launched; the result buffer ends at the fold read there.
-/
import proofs.«163706_j46858093199625_1_alg».proof.Proof.SimDefs

noncomputable section

namespace Cert.ReferenceIdeal.Hand

open Cert.ReferenceIdeal Cert.ReferenceIdeal.Gen Idealize.ShloMosaic Idealize.ShloMosaic.TcCoe Idealize.SL.Sem
open Idealize.ShloMosaic.StableHlo
open Cert.ReferenceIdeal.ValueP (ops main_eq scopedRefs_eq scopedSems_eq ops_sub)

set_option maxRecDepth 16384 in
theorem arg1_not_written : (ops (F := Ideal)).Forall fun op => (Proc.devRef .tc main_arg1) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxRecDepth 16384 in
theorem arg2_not_written : (ops (F := Ideal)).Forall fun op => (Proc.devRef .tc main_arg2) ∉ op.writes := by
  simp only [ops, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem after_arg0 (V : Valuation τ sig (Elt Ideal)) : after (ops (F := Ideal)) V (Proc.devRef .tc main_arg0) = V (Proc.devRef .tc main_arg0) :=
  after_of_forall_not_mem _ _ (List.forall_iff_forall_mem.mp Cert.Sim.arg0_not_written)
theorem after_arg1 (V : Valuation τ sig (Elt Ideal)) : after (ops (F := Ideal)) V (Proc.devRef .tc main_arg1) = V (Proc.devRef .tc main_arg1) :=
  after_of_forall_not_mem _ _ (List.forall_iff_forall_mem.mp arg1_not_written)
theorem after_arg2 (V : Valuation τ sig (Elt Ideal)) : after (ops (F := Ideal)) V (Proc.devRef .tc main_arg2) = V (Proc.devRef .tc main_arg2) :=
  after_of_forall_not_mem _ _ (List.forall_iff_forall_mem.mp arg2_not_written)
theorem after_arg3 (V : Valuation τ sig (Elt Ideal)) : after (ops (F := Ideal)) V (Proc.devRef .tc main_arg3) = V (Proc.devRef .tc main_arg3) :=
  after_of_forall_not_mem _ _ (List.forall_iff_forall_mem.mp Cert.Sim.arg3_not_written)
theorem after_arg4 (V : Valuation τ sig (Elt Ideal)) : after (ops (F := Ideal)) V (Proc.devRef .tc main_arg4) = V (Proc.devRef .tc main_arg4) :=
  after_of_forall_not_mem _ _ (List.forall_iff_forall_mem.mp Cert.Sim.arg4_not_written)
theorem after_arg5 (V : Valuation τ sig (Elt Ideal)) : after (ops (F := Ideal)) V (Proc.devRef .tc main_arg5) = V (Proc.devRef .tc main_arg5) :=
  after_of_forall_not_mem _ _ (List.forall_iff_forall_mem.mp Cert.Sim.arg5_not_written)
theorem after_arg6 (V : Valuation τ sig (Elt Ideal)) : after (ops (F := Ideal)) V (Proc.devRef .tc main_arg6) = V (Proc.devRef .tc main_arg6) :=
  after_of_forall_not_mem _ _ (List.forall_iff_forall_mem.mp Cert.Sim.arg6_not_written)
theorem after_arg7 (V : Valuation τ sig (Elt Ideal)) : after (ops (F := Ideal)) V (Proc.devRef .tc main_arg7) = V (Proc.devRef .tc main_arg7) :=
  after_of_forall_not_mem _ _ (List.forall_iff_forall_mem.mp Cert.Sim.arg7_not_written)
theorem after_arg8 (V : Valuation τ sig (Elt Ideal)) : after (ops (F := Ideal)) V (Proc.devRef .tc main_arg8) = V (Proc.devRef .tc main_arg8) :=
  after_of_forall_not_mem _ _ (List.forall_iff_forall_mem.mp Cert.Sim.arg8_not_written)

set_option maxRecDepth 16384 in
/-- Every weakly fair execution of the reference terminates with the result buffer at the fold of its operations over
    the launch contents, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100) = after (ops (F := Ideal)) (launchContents m c) (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v100,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _)⟩)
    (run_seq scopedRefs_eq scopedSems_eq defs main (fun _ => ops) main_eq (fun _ => ops_sub) m ρ)

end Cert.ReferenceIdeal.Hand

end
-- ==== Proof.KernelRun.lean ====
/-
  The whole program's run with its result kept. The program is three tiled matrix products among stretches of host
  operations; run as a chain of segments from the launch memory, every weakly fair execution terminates, and at the
  end every unscoped buffer holds the contents of the last segment boundary. Read at the result buffer and at the nine
  argument buffers: the result is the last boundary's contents there, and the arguments are as launched.
-/
import proofs.«163706_j46858093199625_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents of
    the last segment boundary, the argument buffers as launched. -/
theorem run_whole : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Whole

end
-- ==== Proof.SimPre.lean ====
/-
  The host operations before the first product, chunk by chunk, on both programs at once. The kernel program's five
  stretches and the reference's slices at the same positions are the same operations on corresponding buffers (the
  edge weights' decay and first degree sum; the first guarded inverse square root, an outlined three-line function;
  the edge weights, the self loops joined on and the second degree sum; the second guarded inverse square root; the
  final normalisation): from equal inputs each writes equal outputs, and the buffers a chunk does not write keep
  their contents.
-/
import proofs.«163706_j46858093199625_1_alg».proof.Proof.SimDefs

noncomputable section

namespace Cert.Sim

open Idealize.ShloMosaic Idealize.ShloMosaic.TcCoe Idealize.SL.Sem
open Idealize.ShloMosaic.StableHlo
open Cert.ReferenceIdeal.ValueP (ops)

/-! ## Chunk 0: decay, first degree sum, its comparison and inverse square root -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_v1 (Vk : KV) (Vr : RV) (h0 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v1) = after (slice 0 21) Vr (Proc.devRef .tc Cert.ReferenceIdeal.main_v1) := by
  simp only [Cert.KernelIdeal.Gen.hostOps0, slice, ops, List.take_succ_cons, List.take_zero, List.drop_succ_cons, List.drop_zero]
  after_results_simp
  try rw [h0]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_v3 (Vk : KV) (Vr : RV) (h0 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v3) = after (slice 0 21) Vr (Proc.devRef .tc Cert.ReferenceIdeal.main_v3) := by
  simp only [Cert.KernelIdeal.Gen.hostOps0, slice, ops, List.take_succ_cons, List.take_zero, List.drop_succ_cons, List.drop_zero]
  after_results_simp
  try rw [h0]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_v9 (Vk : KV) (Vr : RV) (h0 : Vk (Proc.devRef .tc Cert.KernelIdeal.main_arg2) = Vr (Proc.devRef .tc Cert.ReferenceIdeal.main_arg2)) :
    after Cert.KernelIdeal.Gen.hostOps0 Vk (Proc.devRef .tc Cert.KernelIdeal.main_v9) = after (slice 0 21) Vr (Proc.devRef .tc Cert.ReferenceIdeal.main_v9) := by
  simp only [Cert.KernelIdeal.Gen.hostOps0, slice, ops, List.take_succ_cons, List.take_zero, List.drop_succ_cons, List.drop_zero]
  after_results_simp
  try rw [h0]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_v14 (Vk : KV) (Vr : RV) (h0 : Vk (Proc.devRef .tc Cert.KernelIdeal.main_arg1) = Vr (Proc.devRef .tc Cert.ReferenceIdeal.main_arg1)) (h1 : Vk (Proc.devRef .tc Cert.KernelIdeal.main_arg2) = Vr (Proc.devRef .tc Cert.ReferenceIdeal.main_arg2)) :
    after Cert.KernelIdeal.Gen.hostOps0 Vk (Proc.devRef .tc Cert.KernelIdeal.main_v14) = after (slice 0 21) Vr (Proc.devRef .tc Cert.ReferenceIdeal.main_v14) := by
  simp only [Cert.KernelIdeal.Gen.hostOps0, slice, ops, List.take_succ_cons, List.take_zero, List.drop_succ_cons, List.drop_zero]
  after_results_simp
  try rw [h0]
  try rw [h1]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_v15 (Vk : KV) (Vr : RV) (h0 : Vk (Proc.devRef .tc Cert.KernelIdeal.main_arg1) = Vr (Proc.devRef .tc Cert.ReferenceIdeal.main_arg1)) (h1 : Vk (Proc.devRef .tc Cert.KernelIdeal.main_arg2) = Vr (Proc.devRef .tc Cert.ReferenceIdeal.main_arg2)) :
    after Cert.KernelIdeal.Gen.hostOps0 Vk (Proc.devRef .tc Cert.KernelIdeal.main_v15) = after (slice 0 21) Vr (Proc.devRef .tc Cert.ReferenceIdeal.main_v15) := by
  simp only [Cert.KernelIdeal.Gen.hostOps0, slice, ops, List.take_succ_cons, List.take_zero, List.drop_succ_cons, List.drop_zero]
  after_results_simp
  try rw [h0]
  try rw [h1]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c0_cst3 (Vk : KV) (Vr : RV)  :
    after Cert.KernelIdeal.Gen.hostOps0 Vk (Proc.devRef .tc Cert.KernelIdeal.main_cst_3) = after (slice 0 21) Vr (Proc.devRef .tc Cert.ReferenceIdeal.main_cst_3) := by
  simp only [Cert.KernelIdeal.Gen.hostOps0, slice, ops, List.take_succ_cons, List.take_zero, List.drop_succ_cons, List.drop_zero]
  after_results_simp

  all_goals rfl

/-! ## Chunk 1: the first guarded inverse square root -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c1_v16 (Vk : KV) (Vr : RV) (h0 : Vk (Proc.devRef .tc Cert.KernelIdeal.main_v14) = Vr (Proc.devRef .tc Cert.ReferenceIdeal.main_v14)) (h1 : Vk (Proc.devRef .tc Cert.KernelIdeal.main_v15) = Vr (Proc.devRef .tc Cert.ReferenceIdeal.main_v15)) (h2 : Vk (Proc.devRef .tc Cert.KernelIdeal.main_cst_3) = Vr (Proc.devRef .tc Cert.ReferenceIdeal.main_cst_3)) :
    after Cert.KernelIdeal.Gen.hostOps0_1 Vk (Proc.devRef .tc Cert.KernelIdeal.main_v16) = after (slice 21 3) Vr (Proc.devRef .tc Cert.ReferenceIdeal.main_v16) := by
  simp only [Cert.KernelIdeal.Gen.hostOps0_1, slice, ops, List.take_succ_cons, List.take_zero, List.drop_succ_cons, List.drop_zero]
  after_results_simp
  try rw [h0]
  try rw [h1]
  try rw [h2]
  all_goals rfl

theorem kK1_v1 (V : KV) : after Cert.KernelIdeal.Gen.hostOps0_1 V (Proc.devRef .tc Cert.KernelIdeal.main_v1) = V (Proc.devRef .tc Cert.KernelIdeal.main_v1) := by
  simp only [Cert.KernelIdeal.Gen.hostOps0_1]
  after_results_simp

theorem kR21_v1 (V : RV) : after (slice 21 3) V (Proc.devRef .tc Cert.ReferenceIdeal.main_v1) = V (Proc.devRef .tc Cert.ReferenceIdeal.main_v1) := by
  simp only [slice, ops, List.take_succ_cons, List.take_zero, List.drop_succ_cons, List.drop_zero]
  after_results_simp

theorem kK1_v3 (V : KV) : after Cert.KernelIdeal.Gen.hostOps0_1 V (Proc.devRef .tc Cert.KernelIdeal.main_v3) = V (Proc.devRef .tc Cert.KernelIdeal.main_v3) := by
  simp only [Cert.KernelIdeal.Gen.hostOps0_1]
  after_results_simp

theorem kR21_v3 (V : RV) : after (slice 21 3) V (Proc.devRef .tc Cert.ReferenceIdeal.main_v3) = V (Proc.devRef .tc Cert.ReferenceIdeal.main_v3) := by
  simp only [slice, ops, List.take_succ_cons, List.take_zero, List.drop_succ_cons, List.drop_zero]
  after_results_simp

theorem kK1_v9 (V : KV) : after Cert.KernelIdeal.Gen.hostOps0_1 V (Proc.devRef .tc Cert.KernelIdeal.main_v9) = V (Proc.devRef .tc Cert.KernelIdeal.main_v9) := by
  simp only [Cert.KernelIdeal.Gen.hostOps0_1]
  after_results_simp

theorem kR21_v9 (V : RV) : after (slice 21 3) V (Proc.devRef .tc Cert.ReferenceIdeal.main_v9) = V (Proc.devRef .tc Cert.ReferenceIdeal.main_v9) := by
  simp only [slice, ops, List.take_succ_cons, List.take_zero, List.drop_succ_cons, List.drop_zero]
  after_results_simp

/-! ## Chunk 2: edge weights, self loops, second degree sum -/

/-! The joins (the self loops appended to the edge lists and to the edge weights) are read through a two-argument
    name, so that their two operands are ordinary arguments. -/

/-- Two arrays joined along an axis, the two arrays as plain arguments. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem catK_i :
    ((fun a b => concatenate Cert.KernelIdeal.S1700000 0 [⟨Cert.KernelIdeal.S1600000, a⟩, ⟨Cert.KernelIdeal.S100000, b⟩] Cert.KernelIdeal.Gen.concatenates_S1600000_S100000_S1700000_d0) :
      (⟨Cert.KernelIdeal.S1600000, .i32⟩ : BufTy).Contents (Elt Ideal) → (⟨Cert.KernelIdeal.S100000, .i32⟩ : BufTy).Contents (Elt Ideal) → (⟨Cert.KernelIdeal.S1700000, .i32⟩ : BufTy).Contents (Elt Ideal))
    = cat2 Cert.KernelIdeal.S1700000 0 Cert.KernelIdeal.S1600000 Cert.KernelIdeal.S100000 Cert.KernelIdeal.Gen.concatenates_S1600000_S100000_S1700000_d0 := rfl

theorem catK_f :
    ((fun a b => concatenate Cert.KernelIdeal.S1700000 0 [⟨Cert.KernelIdeal.S1600000, a⟩, ⟨Cert.KernelIdeal.S100000, b⟩] Cert.KernelIdeal.Gen.concatenates_S1600000_S100000_S1700000_d0) :
      (⟨Cert.KernelIdeal.S1600000, .f32⟩ : BufTy).Contents (Elt Ideal) → (⟨Cert.KernelIdeal.S100000, .f32⟩ : BufTy).Contents (Elt Ideal) → (⟨Cert.KernelIdeal.S1700000, .f32⟩ : BufTy).Contents (Elt Ideal))
    = cat2 Cert.KernelIdeal.S1700000 0 Cert.KernelIdeal.S1600000 Cert.KernelIdeal.S100000 Cert.KernelIdeal.Gen.concatenates_S1600000_S100000_S1700000_d0 := rfl

theorem catR_i :
    ((fun a b => concatenate Cert.ReferenceIdeal.S1700000 0 [⟨Cert.ReferenceIdeal.S1600000, a⟩, ⟨Cert.ReferenceIdeal.S100000, b⟩] Cert.ReferenceIdeal.Gen.concatenates_S1600000_S100000_S1700000_d0) :
      (⟨Cert.ReferenceIdeal.S1600000, .i32⟩ : BufTy).Contents (Elt Ideal) → (⟨Cert.ReferenceIdeal.S100000, .i32⟩ : BufTy).Contents (Elt Ideal) → (⟨Cert.ReferenceIdeal.S1700000, .i32⟩ : BufTy).Contents (Elt Ideal))
    = cat2 Cert.ReferenceIdeal.S1700000 0 Cert.ReferenceIdeal.S1600000 Cert.ReferenceIdeal.S100000 Cert.ReferenceIdeal.Gen.concatenates_S1600000_S100000_S1700000_d0 := rfl

theorem catR_f :
    ((fun a b => concatenate Cert.ReferenceIdeal.S1700000 0 [⟨Cert.ReferenceIdeal.S1600000, a⟩, ⟨Cert.ReferenceIdeal.S100000, b⟩] Cert.ReferenceIdeal.Gen.concatenates_S1600000_S100000_S1700000_d0) :
      (⟨Cert.ReferenceIdeal.S1600000, .f32⟩ : BufTy).Contents (Elt Ideal) → (⟨Cert.ReferenceIdeal.S100000, .f32⟩ : BufTy).Contents (Elt Ideal) → (⟨Cert.ReferenceIdeal.S1700000, .f32⟩ : BufTy).Contents (Elt Ideal))
    = cat2 Cert.ReferenceIdeal.S1700000 0 Cert.ReferenceIdeal.S1600000 Cert.ReferenceIdeal.S100000 Cert.ReferenceIdeal.Gen.concatenates_S1600000_S100000_S1700000_d0 := rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_v34 (Vk : KV) (Vr : RV) (h0 : Vk (Proc.devRef .tc Cert.KernelIdeal.main_v1) = Vr (Proc.devRef .tc Cert.ReferenceIdeal.main_v1)) :
    after Cert.KernelIdeal.Gen.hostOps0_2 Vk (Proc.devRef .tc Cert.KernelIdeal.main_v34) = after (slice 24 35) Vr (Proc.devRef .tc Cert.ReferenceIdeal.main_v34) := by
  simp only [Cert.KernelIdeal.Gen.hostOps0_2, slice, ops, List.take_succ_cons, List.take_zero, List.drop_succ_cons, List.drop_zero, catK_i, catK_f, catR_i, catR_f]
  after_results_simp
  try rw [h0]
  all_goals rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_v35 (Vk : KV) (Vr : RV) (h0 : Vk (Proc.devRef .tc Cert.KernelIdeal.main_v3) = Vr (Proc.devRef .tc Cert.ReferenceIdeal.main_v3)) :
    after Cert.KernelIdeal.Gen.hostOps0_2 Vk (Proc.devRef .tc Cert.KernelIdeal.main_v35) = after (slice 24 35) Vr (Proc.devRef .tc Cert.ReferenceIdeal.main_v35) := by
  simp only [Cert.KernelIdeal.Gen.hostOps0_2, slice, ops, List.take_succ_cons, List.take_zero, List.drop_succ_cons, List.drop_zero, catK_i, catK_f, catR_i, catR_f]
  after_results_simp
  try rw [h0]
  all_goals rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_v37 (Vk : KV) (Vr : RV) (h0 : Vk (Proc.devRef .tc Cert.KernelIdeal.main_v1) = Vr (Proc.devRef .tc Cert.ReferenceIdeal.main_v1)) (h1 : Vk (Proc.devRef .tc Cert.KernelIdeal.main_v3) = Vr (Proc.devRef .tc Cert.ReferenceIdeal.main_v3)) (h2 : Vk (Proc.devRef .tc Cert.KernelIdeal.main_v9) = Vr (Proc.devRef .tc Cert.ReferenceIdeal.main_v9)) (h3 : Vk (Proc.devRef .tc Cert.KernelIdeal.main_v16) = Vr (Proc.devRef .tc Cert.ReferenceIdeal.main_v16)) :
    after Cert.KernelIdeal.Gen.hostOps0_2 Vk (Proc.devRef .tc Cert.KernelIdeal.main_v37) = after (slice 24 35) Vr (Proc.devRef .tc Cert.ReferenceIdeal.main_v37) := by
  simp only [Cert.KernelIdeal.Gen.hostOps0_2, slice, ops, List.take_succ_cons, List.take_zero, List.drop_succ_cons, List.drop_zero, catK_i, catK_f, catR_i, catR_f]
  after_results_simp
  try rw [h0]
  try rw [h1]
  try rw [h2]
  try rw [h3]
  all_goals rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_v42 (Vk : KV) (Vr : RV) (h0 : Vk (Proc.devRef .tc Cert.KernelIdeal.main_v1) = Vr (Proc.devRef .tc Cert.ReferenceIdeal.main_v1)) (h1 : Vk (Proc.devRef .tc Cert.KernelIdeal.main_v3) = Vr (Proc.devRef .tc Cert.ReferenceIdeal.main_v3)) (h2 : Vk (Proc.devRef .tc Cert.KernelIdeal.main_v9) = Vr (Proc.devRef .tc Cert.ReferenceIdeal.main_v9)) (h3 : Vk (Proc.devRef .tc Cert.KernelIdeal.main_v16) = Vr (Proc.devRef .tc Cert.ReferenceIdeal.main_v16)) :
    after Cert.KernelIdeal.Gen.hostOps0_2 Vk (Proc.devRef .tc Cert.KernelIdeal.main_v42) = after (slice 24 35) Vr (Proc.devRef .tc Cert.ReferenceIdeal.main_v42) := by
  simp only [Cert.KernelIdeal.Gen.hostOps0_2, slice, ops, List.take_succ_cons, List.take_zero, List.drop_succ_cons, List.drop_zero, catK_i, catK_f, catR_i, catR_f]
  after_results_simp
  try rw [h0]
  try rw [h1]
  try rw [h2]
  try rw [h3]
  all_goals rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_v43 (Vk : KV) (Vr : RV) (h0 : Vk (Proc.devRef .tc Cert.KernelIdeal.main_v1) = Vr (Proc.devRef .tc Cert.ReferenceIdeal.main_v1)) (h1 : Vk (Proc.devRef .tc Cert.KernelIdeal.main_v3) = Vr (Proc.devRef .tc Cert.ReferenceIdeal.main_v3)) (h2 : Vk (Proc.devRef .tc Cert.KernelIdeal.main_v9) = Vr (Proc.devRef .tc Cert.ReferenceIdeal.main_v9)) (h3 : Vk (Proc.devRef .tc Cert.KernelIdeal.main_v16) = Vr (Proc.devRef .tc Cert.ReferenceIdeal.main_v16)) :
    after Cert.KernelIdeal.Gen.hostOps0_2 Vk (Proc.devRef .tc Cert.KernelIdeal.main_v43) = after (slice 24 35) Vr (Proc.devRef .tc Cert.ReferenceIdeal.main_v43) := by
  simp only [Cert.KernelIdeal.Gen.hostOps0_2, slice, ops, List.take_succ_cons, List.take_zero, List.drop_succ_cons, List.drop_zero, catK_i, catK_f, catR_i, catR_f]
  after_results_simp
  try rw [h0]
  try rw [h1]
  try rw [h2]
  try rw [h3]
  all_goals rfl

attribute [local irreducible] Host.reduce Host.gather Host.scatterAdd Host.exp Host.rsqrt concatenate iotaInDim extractStridedSlice shapeCast broadcastInDim select cmpf cmpi addi mulf subf addf maximumf constant constantI cat2 in
set_option maxHeartbeats 1000000 in
theorem c2_cst10 (Vk : KV) (Vr : RV)  :
    after Cert.KernelIdeal.Gen.hostOps0_2 Vk (Proc.devRef .tc Cert.KernelIdeal.main_cst_10) = after (slice 24 35) Vr (Proc.devRef .tc Cert.ReferenceIdeal.main_cst_10) := by
  simp only [Cert.KernelIdeal.Gen.hostOps0_2, slice, ops, List.take_succ_cons, List.take_zero, List.drop_succ_cons, List.drop_zero, catK_i, catK_f, catR_i, catR_f]
  after_results_simp

  all_goals rfl

/-! ## Chunk 3: the second guarded inverse square root -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c3_v44 (Vk : KV) (Vr : RV) (h0 : Vk (Proc.devRef .tc Cert.KernelIdeal.main_v42) = Vr (Proc.devRef .tc Cert.ReferenceIdeal.main_v42)) (h1 : Vk (Proc.devRef .tc Cert.KernelIdeal.main_v43) = Vr (Proc.devRef .tc Cert.ReferenceIdeal.main_v43)) (h2 : Vk (Proc.devRef .tc Cert.KernelIdeal.main_cst_10) = Vr (Proc.devRef .tc Cert.ReferenceIdeal.main_cst_10)) :
    after Cert.KernelIdeal.Gen.hostOps0_3 Vk (Proc.devRef .tc Cert.KernelIdeal.main_v44) = after (slice 59 3) Vr (Proc.devRef .tc Cert.ReferenceIdeal.main_v44) := by
  simp only [Cert.KernelIdeal.Gen.hostOps0_3, slice, ops, List.take_succ_cons, List.take_zero, List.drop_succ_cons, List.drop_zero]
  after_results_simp
  try rw [h0]
  try rw [h1]
  try rw [h2]
  all_goals rfl

theorem kK3_v34 (V : KV) : after Cert.KernelIdeal.Gen.hostOps0_3 V (Proc.devRef .tc Cert.KernelIdeal.main_v34) = V (Proc.devRef .tc Cert.KernelIdeal.main_v34) := by
  simp only [Cert.KernelIdeal.Gen.hostOps0_3]
  after_results_simp

theorem kR59_v34 (V : RV) : after (slice 59 3) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kK3_v35 (V : KV) : after Cert.KernelIdeal.Gen.hostOps0_3 V (Proc.devRef .tc Cert.KernelIdeal.main_v35) = V (Proc.devRef .tc Cert.KernelIdeal.main_v35) := by
  simp only [Cert.KernelIdeal.Gen.hostOps0_3]
  after_results_simp

theorem kR59_v35 (V : RV) : after (slice 59 3) V (Proc.devRef .tc Cert.ReferenceIdeal.main_v35) = V (Proc.devRef .tc Cert.ReferenceIdeal.main_v35) := by
  simp only [slice, ops, List.take_succ_cons, List.take_zero, List.drop_succ_cons, List.drop_zero]
  after_results_simp

theorem kK3_v37 (V : KV) : after Cert.KernelIdeal.Gen.hostOps0_3 V (Proc.devRef .tc Cert.KernelIdeal.main_v37) = V (Proc.devRef .tc Cert.KernelIdeal.main_v37) := by
  simp only [Cert.KernelIdeal.Gen.hostOps0_3]
  after_results_simp

theorem kR59_v37 (V : RV) : after (slice 59 3) V (Proc.devRef .tc Cert.ReferenceIdeal.main_v37) = V (Proc.devRef .tc Cert.ReferenceIdeal.main_v37) := by
  simp only [slice, ops, List.take_succ_cons, List.take_zero, List.drop_succ_cons, List.drop_zero]
  after_results_simp

/-! ## Chunk 4: the normalised edge weights -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c4_v60 (Vk : KV) (Vr : RV) (h0 : Vk (Proc.devRef .tc Cert.KernelIdeal.main_v34) = Vr (Proc.devRef .tc Cert.ReferenceIdeal.main_v34)) (h1 : Vk (Proc.devRef .tc Cert.KernelIdeal.main_v35) = Vr (Proc.devRef .tc Cert.ReferenceIdeal.main_v35)) (h2 : Vk (Proc.devRef .tc Cert.KernelIdeal.main_v37) = Vr (Proc.devRef .tc Cert.ReferenceIdeal.main_v37)) (h3 : Vk (Proc.devRef .tc Cert.KernelIdeal.main_v44) = Vr (Proc.devRef .tc Cert.ReferenceIdeal.main_v44)) :
    after Cert.KernelIdeal.Gen.hostOps0_4 Vk (Proc.devRef .tc Cert.KernelIdeal.main_v60) = after (slice 62 20) Vr (Proc.devRef .tc Cert.ReferenceIdeal.main_v60) := by
  simp only [Cert.KernelIdeal.Gen.hostOps0_4, slice, ops, List.take_succ_cons, List.take_zero, List.drop_succ_cons, List.drop_zero]
  after_results_simp
  try rw [h0]
  try rw [h1]
  try rw [h2]
  try rw [h3]
  all_goals rfl

theorem kK4_v34 (V : KV) : after Cert.KernelIdeal.Gen.hostOps0_4 V (Proc.devRef .tc Cert.KernelIdeal.main_v34) = V (Proc.devRef .tc Cert.KernelIdeal.main_v34) := by
  simp only [Cert.KernelIdeal.Gen.hostOps0_4]
  after_results_simp

theorem kR62_v34 (V : RV) : after (slice 62 20) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kK4_v35 (V : KV) : after Cert.KernelIdeal.Gen.hostOps0_4 V (Proc.devRef .tc Cert.KernelIdeal.main_v35) = V (Proc.devRef .tc Cert.KernelIdeal.main_v35) := by
  simp only [Cert.KernelIdeal.Gen.hostOps0_4]
  after_results_simp

theorem kR62_v35 (V : RV) : after (slice 62 20) V (Proc.devRef .tc Cert.ReferenceIdeal.main_v35) = V (Proc.devRef .tc Cert.ReferenceIdeal.main_v35) := by
  simp only [slice, ops, List.take_succ_cons, List.take_zero, List.drop_succ_cons, List.drop_zero]
  after_results_simp

end Cert.Sim

end
-- ==== Proof.SimLayers.lean ====
/-
  The two graph-convolution layers' host operations, chunk by chunk, on both programs at once, and the reference's three
  dot-product lines. A layer gathers the product's rows at the edges' source nodes, scales them by the edges' weights,
  adds them up at the target nodes and adds the bias (one chunk), then takes the maximum with zero (an outlined
  three-line function, its own chunk). From equal inputs the two programs write equal outputs; the edge weights and
  the two node lists pass through untouched.
-/
import proofs.«163706_j46858093199625_1_alg».proof.Proof.SimDefs

noncomputable section

namespace Cert.Sim

open Idealize.ShloMosaic Idealize.ShloMosaic.TcCoe Idealize.SL.Sem
open Idealize.ShloMosaic.StableHlo
open Cert.ReferenceIdeal.ValueP (ops)

/-! ## The first layer -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c5_v80 (Vk : KV) (Vr : RV) (h0 : Vk (Proc.devRef .tc Cert.KernelIdeal.main_v60) = Vr (Proc.devRef .tc Cert.ReferenceIdeal.main_v60)) (h1 : Vk (Proc.devRef .tc Cert.KernelIdeal.main_v34) = Vr (Proc.devRef .tc Cert.ReferenceIdeal.main_v34)) (h2 : Vk (Proc.devRef .tc Cert.KernelIdeal.main_v35) = Vr (Proc.devRef .tc Cert.ReferenceIdeal.main_v35)) (h3 : Vk (Proc.devRef .tc Cert.KernelIdeal.main_v64) = Vr (Proc.devRef .tc Cert.ReferenceIdeal.main_v61)) (h4 : Vk (Proc.devRef .tc Cert.KernelIdeal.main_arg4) = Vr (Proc.devRef .tc Cert.ReferenceIdeal.main_arg4)) :
    after Cert.KernelIdeal.Gen.hostOps1 Vk (Proc.devRef .tc Cert.KernelIdeal.main_v80) = after (slice 83 19) Vr (Proc.devRef .tc Cert.ReferenceIdeal.main_v77) := by
  simp only [Cert.KernelIdeal.Gen.hostOps1, slice, ops, List.take_succ_cons, List.take_zero, List.drop_succ_cons, List.drop_zero]
  after_results_simp
  try rw [h0]
  try rw [h1]
  try rw [h2]
  try rw [h3]
  try rw [h4]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c6_v81 (Vk : KV) (Vr : RV) (h0 : Vk (Proc.devRef .tc Cert.KernelIdeal.main_v80) = Vr (Proc.devRef .tc Cert.ReferenceIdeal.main_v77)) :
    after Cert.KernelIdeal.Gen.hostOps1_1 Vk (Proc.devRef .tc Cert.KernelIdeal.main_v81) = after (slice 102 3) Vr (Proc.devRef .tc Cert.ReferenceIdeal.main_v78) := by
  simp only [Cert.KernelIdeal.Gen.hostOps1_1, slice, ops, List.take_succ_cons, List.take_zero, List.drop_succ_cons, List.drop_zero]
  after_results_simp
  try rw [h0]
  all_goals rfl

/-! ## The second layer -/

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c8_v101 (Vk : KV) (Vr : RV) (h0 : Vk (Proc.devRef .tc Cert.KernelIdeal.main_v60) = Vr (Proc.devRef .tc Cert.ReferenceIdeal.main_v60)) (h1 : Vk (Proc.devRef .tc Cert.KernelIdeal.main_v34) = Vr (Proc.devRef .tc Cert.ReferenceIdeal.main_v34)) (h2 : Vk (Proc.devRef .tc Cert.KernelIdeal.main_v35) = Vr (Proc.devRef .tc Cert.ReferenceIdeal.main_v35)) (h3 : Vk (Proc.devRef .tc Cert.KernelIdeal.main_v85) = Vr (Proc.devRef .tc Cert.ReferenceIdeal.main_v79)) (h4 : Vk (Proc.devRef .tc Cert.KernelIdeal.main_arg6) = Vr (Proc.devRef .tc Cert.ReferenceIdeal.main_arg6)) :
    after Cert.KernelIdeal.Gen.hostOps2 Vk (Proc.devRef .tc Cert.KernelIdeal.main_v101) = after (slice 106 19) Vr (Proc.devRef .tc Cert.ReferenceIdeal.main_v95) := by
  simp only [Cert.KernelIdeal.Gen.hostOps2, slice, ops, List.take_succ_cons, List.take_zero, List.drop_succ_cons, List.drop_zero]
  after_results_simp
  try rw [h0]
  try rw [h1]
  try rw [h2]
  try rw [h3]
  try rw [h4]
  all_goals rfl

attribute [local irreducible] Host.reduce Host.gather Host.scatterAdd Host.exp Host.rsqrt concatenate iotaInDim extractStridedSlice shapeCast broadcastInDim select cmpf cmpi addi mulf subf addf maximumf constant constantI in
set_option maxHeartbeats 1000000 in
theorem c9_v102 (Vk : KV) (Vr : RV) (h0 : Vk (Proc.devRef .tc Cert.KernelIdeal.main_v101) = Vr (Proc.devRef .tc Cert.ReferenceIdeal.main_v95)) :
    after Cert.KernelIdeal.Gen.hostOps2_1 Vk (Proc.devRef .tc Cert.KernelIdeal.main_v102) = after (slice 125 3) Vr (Proc.devRef .tc Cert.ReferenceIdeal.main_v96) := by
  simp only [Cert.KernelIdeal.Gen.hostOps2_1, slice, ops, List.take_succ_cons, List.take_zero, List.drop_succ_cons, List.drop_zero]
  after_results_simp
  try rw [h0]
  all_goals rfl

/-! ## What the reference's slices between the first and the third product leave alone -/

theorem kR82_v60 (V : RV) : after (slice 82 1) V (Proc.devRef .tc Cert.ReferenceIdeal.main_v60) = V (Proc.devRef .tc Cert.ReferenceIdeal.main_v60) := by
  simp only [slice, ops, List.take_succ_cons, List.take_zero, List.drop_succ_cons, List.drop_zero]
  after_results_simp

theorem kR82_v34 (V : RV) : after (slice 82 1) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kR82_v35 (V : RV) : after (slice 82 1) V (Proc.devRef .tc Cert.ReferenceIdeal.main_v35) = V (Proc.devRef .tc Cert.ReferenceIdeal.main_v35) := by
  simp only [slice, ops, List.take_succ_cons, List.take_zero, List.drop_succ_cons, List.drop_zero]
  after_results_simp

theorem kR83_v60 (V : RV) : after (slice 83 19) V (Proc.devRef .tc Cert.ReferenceIdeal.main_v60) = V (Proc.devRef .tc Cert.ReferenceIdeal.main_v60) := by
  simp only [slice, ops, List.take_succ_cons, List.take_zero, List.drop_succ_cons, List.drop_zero]
  after_results_simp

theorem kR83_v34 (V : RV) : after (slice 83 19) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kR83_v35 (V : RV) : after (slice 83 19) V (Proc.devRef .tc Cert.ReferenceIdeal.main_v35) = V (Proc.devRef .tc Cert.ReferenceIdeal.main_v35) := by
  simp only [slice, ops, List.take_succ_cons, List.take_zero, List.drop_succ_cons, List.drop_zero]
  after_results_simp

theorem kR102_v60 (V : RV) : after (slice 102 3) V (Proc.devRef .tc Cert.ReferenceIdeal.main_v60) = V (Proc.devRef .tc Cert.ReferenceIdeal.main_v60) := by
  simp only [slice, ops, List.take_succ_cons, List.take_zero, List.drop_succ_cons, List.drop_zero]
  after_results_simp

theorem kR102_v34 (V : RV) : after (slice 102 3) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kR102_v35 (V : RV) : after (slice 102 3) V (Proc.devRef .tc Cert.ReferenceIdeal.main_v35) = V (Proc.devRef .tc Cert.ReferenceIdeal.main_v35) := by
  simp only [slice, ops, List.take_succ_cons, List.take_zero, List.drop_succ_cons, List.drop_zero]
  after_results_simp

theorem kR105_v60 (V : RV) : after (slice 105 1) V (Proc.devRef .tc Cert.ReferenceIdeal.main_v60) = V (Proc.devRef .tc Cert.ReferenceIdeal.main_v60) := by
  simp only [slice, ops, List.take_succ_cons, List.take_zero, List.drop_succ_cons, List.drop_zero]
  after_results_simp

theorem kR105_v34 (V : RV) : after (slice 105 1) V (Proc.devRef .tc Cert.ReferenceIdeal.main_v34) = V (Proc.devRef .tc Cert.ReferenceIdeal.main_v34) := by
  simp only [slice, ops, List.take_succ_cons, List.take_zero, List.drop_succ_cons, List.drop_zero]
  after_results_simp

theorem kR105_v35 (V : RV) : after (slice 105 1) V (Proc.devRef .tc Cert.ReferenceIdeal.main_v35) = V (Proc.devRef .tc Cert.ReferenceIdeal.main_v35) := by
  simp only [slice, ops, List.take_succ_cons, List.take_zero, List.drop_succ_cons, List.drop_zero]
  after_results_simp

/-! ## The reference's dot-product lines -/

theorem rd0 (V : RV) : (after (slice 82 1) V (Proc.devRef .tc Cert.ReferenceIdeal.main_v61) : (⟨Cert.ReferenceIdeal.S100000x64, .f32⟩ : BufTy).Contents (Elt Ideal))
    = Host.dotGeneral (F := Ideal) (φ₁ := .f32) (φ₂ := .f32) Cert.ReferenceIdeal.dot_S100000x128_S128x64_S100000x64_1_0_0_1_n_n none (V (Proc.devRef .tc Cert.ReferenceIdeal.main_arg0) : FVec Ideal Cert.ReferenceIdeal.S100000x128 .f32) (V (Proc.devRef .tc Cert.ReferenceIdeal.main_arg3) : FVec Ideal Cert.ReferenceIdeal.S128x64 .f32) := by
  simp only [slice, ops, List.take_succ_cons, List.take_zero, List.drop_succ_cons, List.drop_zero]
  after_results_simp
  all_goals rfl

theorem rd1 (V : RV) : (after (slice 105 1) V (Proc.devRef .tc Cert.ReferenceIdeal.main_v79) : (⟨Cert.ReferenceIdeal.S100000x64, .f32⟩ : BufTy).Contents (Elt Ideal))
    = Host.dotGeneral (F := Ideal) (φ₁ := .f32) (φ₂ := .f32) Cert.ReferenceIdeal.dot_S100000x64_S64x64_S100000x64_1_0_0_1_n_n none (V (Proc.devRef .tc Cert.ReferenceIdeal.main_v78) : FVec Ideal Cert.ReferenceIdeal.S100000x64 .f32) (V (Proc.devRef .tc Cert.ReferenceIdeal.main_arg5) : FVec Ideal Cert.ReferenceIdeal.S64x64 .f32) := by
  simp only [slice, ops, List.take_succ_cons, List.take_zero, List.drop_succ_cons, List.drop_zero]
  after_results_simp
  all_goals rfl

theorem rd2 (V : RV) : (after (slice 128 4) V (Proc.devRef .tc Cert.ReferenceIdeal.main_v100) : (⟨Cert.ReferenceIdeal.S100000x10, .f32⟩ : BufTy).Contents (Elt Ideal))
    = addf (Host.dotGeneral (F := Ideal) (φ₁ := .f32) (φ₂ := .f32) Cert.ReferenceIdeal.dot_S100000x64_S64x10_S100000x10_1_0_0_1_n_n none (V (Proc.devRef .tc Cert.ReferenceIdeal.main_v96) : FVec Ideal Cert.ReferenceIdeal.S100000x64 .f32) (V (Proc.devRef .tc Cert.ReferenceIdeal.main_arg7) : FVec Ideal Cert.ReferenceIdeal.S64x10 .f32))
        (broadcastInDim Cert.ReferenceIdeal.S100000x10 ![0, 1] Cert.ReferenceIdeal.Gen.bcast_S1x10_S100000x10_0_1
          (broadcastInDim Cert.ReferenceIdeal.S1x10 ![1] Cert.ReferenceIdeal.Gen.bcast_S10_S1x10_1 (V (Proc.devRef .tc Cert.ReferenceIdeal.main_arg8) : FVec Ideal Cert.ReferenceIdeal.S10 .f32))) := by
  simp only [slice, ops, List.take_succ_cons, List.take_zero, List.drop_succ_cons, List.drop_zero]
  after_results_simp
  all_goals rfl

end Cert.Sim

end
-- ==== Proof.KernelOnly.lean ====
/-
  What the kernel program's host stretches do beside the reference's lines. Before each product they narrow the two
  operands to a shorter float format — the identity on the extended reals — and write the product's one-row bias:
  zeros before the first two products, the bias vector read as one row before the third. They write no argument, and
  the stretches between the products leave the edge weights and the two node lists alone.
-/
import proofs.«163706_j46858093199625_1_alg».proof.Proof.Gen.KernelIdeal.Launch
import Idealize.ShloMosaic.Lib.StableHlo.Run
import Idealize.ShloMosaic.PureOps.Ideal.Laws

noncomputable section

namespace Cert.KernelIdeal.Stages

open Cert.KernelIdeal Cert.KernelIdeal.Gen Idealize.ShloMosaic Idealize.ShloMosaic.TcCoe Idealize.SL.Sem
open Idealize.ShloMosaic.StableHlo

variable (W : Valuation τ sig (Elt Ideal))

/-- The buffers' contents after the five stretches of host operations before the first product, from contents W. -/
def pre : Valuation τ sig (Elt Ideal) :=
  after hostOps0_4 (after hostOps0_3 (after hostOps0_2 (after hostOps0_1 (after hostOps0 W))))

/-- After the three stretches between the first and the second product. -/
def mid1 : Valuation τ sig (Elt Ideal) := after hostOps1_2 (after hostOps1_1 (after hostOps1 W))

/-- After the three stretches between the second and the third product. -/
def mid2 : Valuation τ sig (Elt Ideal) := after hostOps2_2 (after hostOps2_1 (after hostOps2 W))

/-! ## Before the first product -/

/-- x, narrowed. -/
theorem pre_v62 : (pre W (Proc.devRef .tc main_v62) : S100000x128.Idx → EReal) = W (Proc.devRef .tc main_arg0) := by
  unfold pre
  simp only [hostOps0_4, hostOps0_3, hostOps0_2, hostOps0_1, hostOps0]
  after_results_simp
  rfl

/-- The first weight matrix, narrowed. -/
theorem pre_v63 : (pre W (Proc.devRef .tc main_v63) : S128x64.Idx → EReal) = W (Proc.devRef .tc main_arg3) := by
  unfold pre
  simp only [hostOps0_4, hostOps0_3, hostOps0_2, hostOps0_1, hostOps0]
  after_results_simp
  rfl

/-- The first product's one-row bias is zero. -/
theorem pre_v61 (j : S1x64.Idx) : (pre W (Proc.devRef .tc main_v61) : S1x64.Idx → EReal) j = (0 : EReal) := by
  unfold pre
  simp only [hostOps0_4, hostOps0_3, hostOps0_2, hostOps0_1, hostOps0]
  after_results_simp
  exact Ideal.ofBits_zero_f32

theorem pre_arg4 : pre W (Proc.devRef .tc main_arg4) = W (Proc.devRef .tc main_arg4) := by
  unfold pre
  simp only [hostOps0_4, hostOps0_3, hostOps0_2, hostOps0_1, hostOps0]
  after_results_simp

theorem pre_arg5 : pre W (Proc.devRef .tc main_arg5) = W (Proc.devRef .tc main_arg5) := by
  unfold pre
  simp only [hostOps0_4, hostOps0_3, hostOps0_2, hostOps0_1, hostOps0]
  after_results_simp

theorem pre_arg6 : pre W (Proc.devRef .tc main_arg6) = W (Proc.devRef .tc main_arg6) := by
  unfold pre
  simp only [hostOps0_4, hostOps0_3, hostOps0_2, hostOps0_1, hostOps0]
  after_results_simp

theorem pre_arg7 : pre W (Proc.devRef .tc main_arg7) = W (Proc.devRef .tc main_arg7) := by
  unfold pre
  simp only [hostOps0_4, hostOps0_3, hostOps0_2, hostOps0_1, hostOps0]
  after_results_simp

theorem pre_arg8 : pre W (Proc.devRef .tc main_arg8) = W (Proc.devRef .tc main_arg8) := by
  unfold pre
  simp only [hostOps0_4, hostOps0_3, hostOps0_2, hostOps0_1, hostOps0]
  after_results_simp

/-! ## Between the first and the second product -/

/-- The first layer's activations, narrowed. -/
theorem k7_v83 : (after hostOps1_2 W (Proc.devRef .tc main_v83) : S100000x64.Idx → EReal) = W (Proc.devRef .tc main_v81) := by
  simp only [hostOps1_2]
  after_results_simp
  rfl

/-- The second weight matrix, narrowed. -/
theorem mid1_v84 : (mid1 W (Proc.devRef .tc main_v84) : S64x64.Idx → EReal) = W (Proc.devRef .tc main_arg5) := by
  unfold mid1
  simp only [hostOps1_2, hostOps1_1, hostOps1]
  after_results_simp
  rfl

/-- The second product's one-row bias is zero. -/
theorem mid1_v82 (j : S1x64.Idx) : (mid1 W (Proc.devRef .tc main_v82) : S1x64.Idx → EReal) j = (0 : EReal) := by
  unfold mid1
  simp only [hostOps1_2, hostOps1_1, hostOps1]
  after_results_simp
  exact Ideal.ofBits_zero_f32

theorem mid1_v60 : mid1 W (Proc.devRef .tc main_v60) = W (Proc.devRef .tc main_v60) := by
  unfold mid1
  simp only [hostOps1_2, hostOps1_1, hostOps1]
  after_results_simp

theorem mid1_v34 : mid1 W (Proc.devRef .tc main_v34) = W (Proc.devRef .tc main_v34) := by
  unfold mid1
  simp only [hostOps1_2, hostOps1_1, hostOps1]
  after_results_simp

theorem mid1_v35 : mid1 W (Proc.devRef .tc main_v35) = W (Proc.devRef .tc main_v35) := by
  unfold mid1
  simp only [hostOps1_2, hostOps1_1, hostOps1]
  after_results_simp

theorem mid1_arg6 : mid1 W (Proc.devRef .tc main_arg6) = W (Proc.devRef .tc main_arg6) := by
  unfold mid1
  simp only [hostOps1_2, hostOps1_1, hostOps1]
  after_results_simp

theorem mid1_arg7 : mid1 W (Proc.devRef .tc main_arg7) = W (Proc.devRef .tc main_arg7) := by
  unfold mid1
  simp only [hostOps1_2, hostOps1_1, hostOps1]
  after_results_simp

theorem mid1_arg8 : mid1 W (Proc.devRef .tc main_arg8) = W (Proc.devRef .tc main_arg8) := by
  unfold mid1
  simp only [hostOps1_2, hostOps1_1, hostOps1]
  after_results_simp

/-! ## Between the second and the third product -/

/-- The second layer's activations, narrowed. -/
theorem k10_v104 : (after hostOps2_2 W (Proc.devRef .tc main_v104) : S100000x64.Idx → EReal) = W (Proc.devRef .tc main_v102) := by
  simp only [hostOps2_2]
  after_results_simp
  rfl

/-- The last weight matrix, narrowed. -/
theorem mid2_v105 : (mid2 W (Proc.devRef .tc main_v105) : S64x10.Idx → EReal) = W (Proc.devRef .tc main_arg7) := by
  unfold mid2
  simp only [hostOps2_2, hostOps2_1, hostOps2]
  after_results_simp
  rfl

/-- The third product's one-row bias is the bias vector read as one row. -/
theorem mid2_v103 : (mid2 W (Proc.devRef .tc main_v103) : S1x10.Idx → EReal)
    = shapeCast S1x10 (W (Proc.devRef .tc main_arg8) : S10.Idx → EReal) shapeCasts_S10_S1x10 := by
  unfold mid2
  simp only [hostOps2_2, hostOps2_1, hostOps2]
  after_results_simp
  rfl

end Cert.KernelIdeal.Stages

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Affine.lean ====
/-
  An affine map of the rows of a matrix: for x of shape [M, K], w of shape [K, N] and a one-row b of shape [1, N],
  the [M, N] array whose entry (p, q) is  (the sum over k < K of x[p, k] · w[k, q]) + b[0, q],  on the extended reals.

  Three spellings of it are read here at an entry (p, q):
  * a tiled body's: a matrix unit's product of (identity casts of) x and w into a zero accumulator, plus the identity cast
    of b broadcast down the rows;
  * a host dot product with no bias (then b is zero and the sum stands alone, since s + 0 = s for every extended real s);
  * a host dot product plus a vector of N entries laid along every row.
-/
import proofs.«163706_j46858093199625_1_alg».proof.Proof.LibPlainContract
import proofs.«163706_j46858093199625_1_alg».proof.Proof.LibLreluRows

noncomputable section

namespace Cert.Affine

open Idealize.ShloMosaic Idealize.ShloMosaic.ValueIdx

/-- Entry (p, q) of the affine map: the sum over k of x[p, k] · w[k, q], plus b[0, q]. -/
def lin {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (⟨(i 0).val, idx2_lt0 i⟩ : Fin M) k) * w (ix2 k (⟨(i 1).val, idx2_lt1 i⟩ : Fin N)))
    + b (ix2 (0 : Fin 1) (⟨(i 1).val, idx2_lt1 i⟩ : Fin N))

theorem lin_ix2 {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    lin x w b (ix2 p q) = (∑ k : Fin K, x (ix2 p k) * w (ix2 k q)) + b (ix2 (0 : Fin 1) q) := rfl

/-- The tiled body at entry (p, q): the matrix unit's product into the zero accumulator is the sum over k, and the
    one-row bias broadcast down the rows contributes its entry (0, q). -/
theorem body_apply {M K N : Nat} {φ₁ φ₂ : FTy} (prec : Option ContractPrecision)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec (shapeCast ⟨2, ![M, K]⟩ x hx) (shapeCast ⟨2, ![K, N]⟩ w hw)
        (constant ⟨2, ![M, N]⟩ .f32 0x00000000#32))
      (broadcastTo ⟨2, ![M, N]⟩ (shapeCast ⟨2, ![1, N]⟩ b hb) hbc) (ix2 p q)
      = (∑ k : Fin K, x (ix2 p k) * w (ix2 k q)) + b (ix2 (0 : Fin 1) q) := by
  rw [shapeCast_self x hx, shapeCast_self w hw]
  show FloatOps.matmul (DotDims.plain M K N) prec x w (constant ⟨2, ![M, N]⟩ .f32 0x00000000#32) (ix2 p q)
      + broadcastTo ⟨2, ![M, N]⟩ (shapeCast ⟨2, ![1, N]⟩ b hb) hbc (ix2 p q) = _
  rw [Cert.LibPlainContract.matmul_plain_apply M K N prec x w p q, Cert.LibLreluRows.rowDown_apply hb hbc b p q]

/-- A host dot product alone is the affine map with the zero row: s + 0 = s on the extended reals. -/
theorem dot_eq_lin_zero {M K N : Nat} {φ₁ φ₂ : FTy} (prec : Option ContractPrecision) (sched : HostSchedule)
    (x : FVec Ideal ⟨2, ![M, K]⟩ φ₁) (w : FVec Ideal ⟨2, ![K, N]⟩ φ₂) (b : (⟨2, ![1, N]⟩ : Shape).Idx → EReal)
    (hb : ∀ j, b j = 0) :
    (FloatOps.dotGeneral (DotDims.plain M K N) prec sched x w : (⟨2, ![M, N]⟩ : Shape).Idx → EReal) = lin x w b := by
  funext i
  obtain ⟨p, q, rfl⟩ : ∃ (p : Fin M) (q : Fin N), i = ix2 p q := ⟨i 0, i 1, eq_ix2 i⟩
  rw [lin_ix2, hb, add_zero]
  exact Cert.LibPlainContract.dotGeneral_plain_apply M K N prec sched x w p q

end Cert.Affine

end
-- ==== Proof.Payload.lean ====
/-
  What each of the three tiled bodies stores, at one entry. Each body loads a block x of rows, the whole matrix w and
  the one-row bias b, multiplies x by w on the matrix unit into a zero accumulator, broadcasts b down the rows and
  adds: its stored value at entry (p, q) is the sum over k of x[p, k] · w[k, q], plus b[0, q], on the extended reals
  (the narrowing of x and w to a shorter float format before the product is the identity there).
-/
import proofs.«163706_j46858093199625_1_alg».proof.Proof.Gen.KernelIdeal.Skeleton
import proofs.«163706_j46858093199625_1_alg».proof.Proof.Affine

noncomputable section

namespace Cert.KernelIdeal.Body

open Cert.KernelIdeal Cert.KernelIdeal.Gen Idealize.ShloMosaic Idealize.ShloMosaic.ValueIdx

/-- The first product's body, [10000, 128] by [128, 64], at entry (p, q). -/
theorem pay0_apply (x0 : FVec Ideal S10000x128 .bf16) (x1 : FVec Ideal S128x64 .bf16) (x2 : FVec Ideal S1x64 .f32)
    (p : Fin 10000) (q : Fin 64) :
    k0_pay1 (F := Ideal) x0 x1 x2 (ix2 p q) = (∑ k : Fin 128, x0 (ix2 p k) * x1 (ix2 k q)) + x2 (ix2 (0 : Fin 1) q) := by
  unfold k0_pay1
  exact Cert.Affine.body_apply none x0 x1 x2 _ _ _ _ p q

/-- The second product's body, [10000, 64] by [64, 64], at entry (p, q). -/
theorem pay1_apply (x0 : FVec Ideal S10000x64 .bf16) (x1 : FVec Ideal S64x64 .bf16) (x2 : FVec Ideal S1x64 .f32)
    (p : Fin 10000) (q : Fin 64) :
    k1_pay1 (F := Ideal) x0 x1 x2 (ix2 p q) = (∑ k : Fin 64, x0 (ix2 p k) * x1 (ix2 k q)) + x2 (ix2 (0 : Fin 1) q) := by
  unfold k1_pay1
  exact Cert.Affine.body_apply none x0 x1 x2 _ _ _ _ p q

/-- The third product's body, [10000, 64] by [64, 10], at entry (p, q). -/
theorem pay2_apply (x0 : FVec Ideal S10000x64 .bf16) (x1 : FVec Ideal S64x10 .bf16) (x2 : FVec Ideal S1x10 .f32)
    (p : Fin 10000) (q : Fin 10) :
    k2_pay1 (F := Ideal) x0 x1 x2 (ix2 p q) = (∑ k : Fin 64, x0 (ix2 p k) * x1 (ix2 k q)) + x2 (ix2 (0 : Fin 1) q) := by
  unfold k2_pay1
  exact Cert.Affine.body_apply none x0 x1 x2 _ _ _ _ p q

end Cert.KernelIdeal.Body

end
-- ==== Proof.Region0.lean ====
/-
  The first tiled product as one whole-array function. The grid has ten points; point t stages rows
  10000·t … 10000·t + 9999 of x (an array of 100000 rows), the whole of w and the whole one-row b, and writes back
  rows 10000·t … 10000·t + 9999 of the result. What it writes at row r of its block and column q is the sum over k of
  x[10000·t + r, k] · w[k, q], plus b[0, q]: the same function of the WHOLE arrays at the entry's position in the
  result. The ten blocks tile the result's 100000 rows, so after the region the result array is the affine map of
  the arrays as the region found them.
-/
import proofs.«163706_j46858093199625_1_alg».proof.Proof.Gen.KernelIdeal.Frame
import proofs.«163706_j46858093199625_1_alg».proof.Proof.Payload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: x's block and the result's block move down the rows with the point, w's and b's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- x's block at point t is rows 10000·t … of x. -/
theorem xblk_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .bf16) y = (V c main_v62 : S100000x128.Idx → EReal) i := by
  obtain ⟨e0, e1, -⟩ := idx_facts t
  unfold iblk0
  rw [View.read_apply]
  show (V c main_v62 : S100000x128.Idx → EReal) _ = _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- w's block at every point is w. -/
theorem wblk_apply (c : Dev nD) (t : Fin cfg0.N) (y : S128x64.Idx) :
    (iblk0 V c 1 t : Vec Ideal S128x64 .bf16) y = (V c main_v63 : S128x64.Idx → EReal) y := by
  obtain ⟨-, -, e2, e3, -⟩ := idx_facts t
  unfold iblk0
  rw [View.read_apply]
  show (V c main_v63 : S128x64.Idx → EReal) _ = _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- b's block at every point is b. -/
theorem bblk_apply (c : Dev nD) (t : Fin cfg0.N) (y : S1x64.Idx) :
    (iblk0 V c 2 t : Vec Ideal S1x64 .f32) y = (V c main_v61 : S1x64.Idx → EReal) y := by
  obtain ⟨-, -, -, -, e4, e5, -⟩ := idx_facts t
  unfold iblk0
  rw [View.read_apply]
  show (V c main_v61 : S1x64.Idx → EReal) _ = _
  congr 1
  funext a
  apply Fin.ext
  match a with
  | ⟨0, _⟩ => show win0_2.index t 0 * 1 + 1 * (y 0).val = (y 0).val; rw [e4]; omega
  | ⟨1, _⟩ => show win0_2.index t 1 * 64 + 1 * (y 1).val = (y 1).val; rw [e5]; omega

/-- The affine map of the arrays as the region finds them. -/
abbrev whole (c : Dev nD) : S100000x64.Idx → EReal :=
  Cert.Affine.lin (V c main_v62 : S100000x128.Idx → EReal) (V c main_v63 : S128x64.Idx → EReal)
    (V c main_v61 : S1x64.Idx → EReal)

/-- What point t writes back is block t of the affine map. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨-, -, -, -, -, -, e6, e7⟩ := idx_facts t
  have hN : cfg0.N = 10 := N_0
  have ht : t.val < 10 := hN ▸ t.isLt
  funext j
  obtain ⟨p, q, rfl⟩ : ∃ (p : Fin 10000) (q : Fin 64), j = ix2 p q := ⟨j 0, j 1, eq_ix2 j⟩
  have hP : t.val * 10000 + p.val < 100000 := by have := p.isLt; omega
  have he : ((cfg0.win 3).blk t).view.emb (ix2 p q) = (ix2 (⟨t.val * 10000 + p.val, hP⟩ : Fin 100000) q : S100000x64.Idx) := by
    funext a
    apply Fin.ext
    match a with
    | ⟨0, _⟩ => show win0_3.index t 0 * 10000 + 1 * p.val = t.val * 10000 + p.val; rw [e6]; omega
    | ⟨1, _⟩ => show win0_3.index t 1 * 64 + 1 * q.val = q.val; rw [e7]; omega
  show k0_pay1 (F := Ideal) (iblk0 V c 0 t) (iblk0 V c 1 t) (iblk0 V c 2 t) (ix2 p q)
      = whole V c (((cfg0.win 3).blk t).view.emb (ix2 p q))
  rw [he]
  refine (Cert.KernelIdeal.Body.pay0_apply (iblk0 V c 0 t) (iblk0 V c 1 t) (iblk0 V c 2 t) p q).trans ?_
  refine Eq.trans ?_ (Cert.Affine.lin_ix2 _ _ _ _ q).symm
  refine congrArg₂ (· + ·) (Finset.sum_congr rfl fun k _ => congrArg₂ (· * ·) ?_ ?_) ?_
  · exact xblk_apply V c t (ix2 p k) (ix2 (⟨t.val * 10000 + p.val, hP⟩ : Fin 100000) k) rfl rfl
  · exact wblk_apply V c t (ix2 k q)
  · exact bblk_apply V c t (ix2 (0 : Fin 1) q)

/-- An index of the result is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v64).slice (win0_3.rect t)).set ↔ _
  rw [View.set_slice_whole, Rect.mem_set_unit]
  exact Iff.rfl

/-- Every row r of the result is in the block of point r / 10000. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 10 := N_0
  have hlt : (i 0).val / 10000 < cfg0.N := by rw [hN]; omega
  obtain ⟨-, -, -, -, -, -, e6, e7⟩ := idx_facts ⟨(i 0).val / 10000, hlt⟩
  refine ⟨⟨(i 0).val / 10000, hlt⟩, flush0_3 _, ?_⟩
  rw [mem_blk]
  intro a
  match a with
  | ⟨0, _⟩ =>
    show win0_3.index ⟨(i 0).val / 10000, hlt⟩ 0 * 10000 ≤ (i 0).val
      ∧ (i 0).val < win0_3.index ⟨(i 0).val / 10000, hlt⟩ 0 * 10000 + 10000
    rw [e6]
    show (i 0).val / 10000 * 10000 ≤ (i 0).val ∧ (i 0).val < (i 0).val / 10000 * 10000 + 10000
    omega
  | ⟨1, _⟩ =>
    show win0_3.index ⟨(i 0).val / 10000, hlt⟩ 1 * 64 ≤ (i 1).val
      ∧ (i 1).val < win0_3.index ⟨(i 0).val / 10000, hlt⟩ 1 * 64 + 64
    rw [e7]
    omega

/-- After the region the result array is the affine map of the arrays as the region found them. -/
theorem final (c : Dev nD) : (dat0 V c).arrAt 3 cfg0.N = whole V c :=
  (dat0 V c).arrAt_eq_of_cover 3 (whole V c) (fun t _ => flushed_eq V c t) cover

end Cert.KernelIdeal.Region0

end
-- ==== Proof.Region1.lean ====
/-
  The second tiled product as one whole-array function. The grid has ten points; point t stages rows
  10000·t … 10000·t + 9999 of x (an array of 100000 rows), the whole of w and the whole one-row b, and writes back
  rows 10000·t … 10000·t + 9999 of the result. What it writes at row r of its block and column q is the sum over k of
  x[10000·t + r, k] · w[k, q], plus b[0, q]: the same function of the WHOLE arrays at the entry's position in the
  result. The ten blocks tile the result's 100000 rows, so after the region the result array is the affine map of
  the arrays as the region found them.
-/
import proofs.«163706_j46858093199625_1_alg».proof.Proof.Gen.KernelIdeal.Frame
import proofs.«163706_j46858093199625_1_alg».proof.Proof.Payload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: x's block and the result's block move down the rows with the point, w's and b's stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- x's block at point t is rows 10000·t … of x. -/
theorem xblk_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .bf16) y = (V c main_v83 : S100000x64.Idx → EReal) i := by
  obtain ⟨e0, e1, -⟩ := idx_facts t
  unfold iblk1
  rw [View.read_apply]
  show (V c main_v83 : S100000x64.Idx → EReal) _ = _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- w's block at every point is w. -/
theorem wblk_apply (c : Dev nD) (t : Fin cfg1.N) (y : S64x64.Idx) :
    (iblk1 V c 1 t : Vec Ideal S64x64 .bf16) y = (V c main_v84 : S64x64.Idx → EReal) y := by
  obtain ⟨-, -, e2, e3, -⟩ := idx_facts t
  unfold iblk1
  rw [View.read_apply]
  show (V c main_v84 : S64x64.Idx → EReal) _ = _
  congr 1
  funext a
  apply Fin.ext
  match a with
  | ⟨0, _⟩ => show win1_1.index t 0 * 64 + 1 * (y 0).val = (y 0).val; rw [e2]; omega
  | ⟨1, _⟩ => show win1_1.index t 1 * 64 + 1 * (y 1).val = (y 1).val; rw [e3]; omega

/-- b's block at every point is b. -/
theorem bblk_apply (c : Dev nD) (t : Fin cfg1.N) (y : S1x64.Idx) :
    (iblk1 V c 2 t : Vec Ideal S1x64 .f32) y = (V c main_v82 : S1x64.Idx → EReal) y := by
  obtain ⟨-, -, -, -, e4, e5, -⟩ := idx_facts t
  unfold iblk1
  rw [View.read_apply]
  show (V c main_v82 : S1x64.Idx → EReal) _ = _
  congr 1
  funext a
  apply Fin.ext
  match a with
  | ⟨0, _⟩ => show win1_2.index t 0 * 1 + 1 * (y 0).val = (y 0).val; rw [e4]; omega
  | ⟨1, _⟩ => show win1_2.index t 1 * 64 + 1 * (y 1).val = (y 1).val; rw [e5]; omega

/-- The affine map of the arrays as the region finds them. -/
abbrev whole (c : Dev nD) : S100000x64.Idx → EReal :=
  Cert.Affine.lin (V c main_v83 : S100000x64.Idx → EReal) (V c main_v84 : S64x64.Idx → EReal)
    (V c main_v82 : S1x64.Idx → EReal)

/-- What point t writes back is block t of the affine map. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨-, -, -, -, -, -, e6, e7⟩ := idx_facts t
  have hN : cfg1.N = 10 := N_1
  have ht : t.val < 10 := hN ▸ t.isLt
  funext j
  obtain ⟨p, q, rfl⟩ : ∃ (p : Fin 10000) (q : Fin 64), j = ix2 p q := ⟨j 0, j 1, eq_ix2 j⟩
  have hP : t.val * 10000 + p.val < 100000 := by have := p.isLt; omega
  have he : ((cfg1.win 3).blk t).view.emb (ix2 p q) = (ix2 (⟨t.val * 10000 + p.val, hP⟩ : Fin 100000) q : S100000x64.Idx) := by
    funext a
    apply Fin.ext
    match a with
    | ⟨0, _⟩ => show win1_3.index t 0 * 10000 + 1 * p.val = t.val * 10000 + p.val; rw [e6]; omega
    | ⟨1, _⟩ => show win1_3.index t 1 * 64 + 1 * q.val = q.val; rw [e7]; omega
  show k1_pay1 (F := Ideal) (iblk1 V c 0 t) (iblk1 V c 1 t) (iblk1 V c 2 t) (ix2 p q)
      = whole V c (((cfg1.win 3).blk t).view.emb (ix2 p q))
  rw [he]
  refine (Cert.KernelIdeal.Body.pay1_apply (iblk1 V c 0 t) (iblk1 V c 1 t) (iblk1 V c 2 t) p q).trans ?_
  refine Eq.trans ?_ (Cert.Affine.lin_ix2 _ _ _ _ q).symm
  refine congrArg₂ (· + ·) (Finset.sum_congr rfl fun k _ => congrArg₂ (· * ·) ?_ ?_) ?_
  · exact xblk_apply V c t (ix2 p k) (ix2 (⟨t.val * 10000 + p.val, hP⟩ : Fin 100000) k) rfl rfl
  · exact wblk_apply V c t (ix2 k q)
  · exact bblk_apply V c t (ix2 (0 : Fin 1) q)

/-- An index of the result is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v85).slice (win1_3.rect t)).set ↔ _
  rw [View.set_slice_whole, Rect.mem_set_unit]
  exact Iff.rfl

/-- Every row r of the result is in the block of point r / 10000. -/
theorem cover (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 10 := N_1
  have hlt : (i 0).val / 10000 < cfg1.N := by rw [hN]; omega
  obtain ⟨-, -, -, -, -, -, e6, e7⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ 0 * 10000 ≤ (i 0).val
      ∧ (i 0).val < win1_3.index ⟨(i 0).val / 10000, hlt⟩ 0 * 10000 + 10000
    rw [e6]
    show (i 0).val / 10000 * 10000 ≤ (i 0).val ∧ (i 0).val < (i 0).val / 10000 * 10000 + 10000
    omega
  | ⟨1, _⟩ =>
    show win1_3.index ⟨(i 0).val / 10000, hlt⟩ 1 * 64 ≤ (i 1).val
      ∧ (i 1).val < win1_3.index ⟨(i 0).val / 10000, hlt⟩ 1 * 64 + 64
    rw [e7]
    omega

/-- After the region the result array is the affine map of the arrays as the region found them. -/
theorem final (c : Dev nD) : (dat1 V c).arrAt 3 cfg1.N = whole V c :=
  (dat1 V c).arrAt_eq_of_cover 3 (whole V c) (fun t _ => flushed_eq V c t) cover

end Cert.KernelIdeal.Region1

end
-- ==== Proof.Region2.lean ====
/-
  The third tiled product as one whole-array function. The grid has ten points; point t stages rows
  10000·t … 10000·t + 9999 of x (an array of 100000 rows), the whole of w and the whole one-row b, and writes back
  rows 10000·t … 10000·t + 9999 of the result. What it writes at row r of its block and column q is the sum over k of
  x[10000·t + r, k] · w[k, q], plus b[0, q]: the same function of the WHOLE arrays at the entry's position in the
  result. The ten blocks tile the result's 100000 rows, so after the region the result array is the affine map of
  the arrays as the region found them.
-/
import proofs.«163706_j46858093199625_1_alg».proof.Proof.Gen.KernelIdeal.Frame
import proofs.«163706_j46858093199625_1_alg».proof.Proof.Payload
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: x's block and the result's block move down the rows with the point, w's and b's stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- x's block at point t is rows 10000·t … of x. -/
theorem xblk_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .bf16) y = (V c main_v104 : S100000x64.Idx → EReal) i := by
  obtain ⟨e0, e1, -⟩ := idx_facts t
  unfold iblk2
  rw [View.read_apply]
  show (V c main_v104 : S100000x64.Idx → EReal) _ = _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- w's block at every point is w. -/
theorem wblk_apply (c : Dev nD) (t : Fin cfg2.N) (y : S64x10.Idx) :
    (iblk2 V c 1 t : Vec Ideal S64x10 .bf16) y = (V c main_v105 : S64x10.Idx → EReal) y := by
  obtain ⟨-, -, e2, e3, -⟩ := idx_facts t
  unfold iblk2
  rw [View.read_apply]
  show (V c main_v105 : S64x10.Idx → EReal) _ = _
  congr 1
  funext a
  apply Fin.ext
  match a with
  | ⟨0, _⟩ => show win2_1.index t 0 * 64 + 1 * (y 0).val = (y 0).val; rw [e2]; omega
  | ⟨1, _⟩ => show win2_1.index t 1 * 10 + 1 * (y 1).val = (y 1).val; rw [e3]; omega

/-- b's block at every point is b. -/
theorem bblk_apply (c : Dev nD) (t : Fin cfg2.N) (y : S1x10.Idx) :
    (iblk2 V c 2 t : Vec Ideal S1x10 .f32) y = (V c main_v103 : S1x10.Idx → EReal) y := by
  obtain ⟨-, -, -, -, e4, e5, -⟩ := idx_facts t
  unfold iblk2
  rw [View.read_apply]
  show (V c main_v103 : S1x10.Idx → EReal) _ = _
  congr 1
  funext a
  apply Fin.ext
  match a with
  | ⟨0, _⟩ => show win2_2.index t 0 * 1 + 1 * (y 0).val = (y 0).val; rw [e4]; omega
  | ⟨1, _⟩ => show win2_2.index t 1 * 10 + 1 * (y 1).val = (y 1).val; rw [e5]; omega

/-- The affine map of the arrays as the region finds them. -/
abbrev whole (c : Dev nD) : S100000x10.Idx → EReal :=
  Cert.Affine.lin (V c main_v104 : S100000x64.Idx → EReal) (V c main_v105 : S64x10.Idx → EReal)
    (V c main_v103 : S1x10.Idx → EReal)

/-- What point t writes back is block t of the affine map. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x10) hz, View.ld_unit_zero (S := S1x10) hz]
  obtain ⟨-, -, -, -, -, -, e6, e7⟩ := idx_facts t
  have hN : cfg2.N = 10 := N_2
  have ht : t.val < 10 := hN ▸ t.isLt
  funext j
  obtain ⟨p, q, rfl⟩ : ∃ (p : Fin 10000) (q : Fin 10), j = ix2 p q := ⟨j 0, j 1, eq_ix2 j⟩
  have hP : t.val * 10000 + p.val < 100000 := by have := p.isLt; omega
  have he : ((cfg2.win 3).blk t).view.emb (ix2 p q) = (ix2 (⟨t.val * 10000 + p.val, hP⟩ : Fin 100000) q : S100000x10.Idx) := by
    funext a
    apply Fin.ext
    match a with
    | ⟨0, _⟩ => show win2_3.index t 0 * 10000 + 1 * p.val = t.val * 10000 + p.val; rw [e6]; omega
    | ⟨1, _⟩ => show win2_3.index t 1 * 10 + 1 * q.val = q.val; rw [e7]; omega
  show k2_pay1 (F := Ideal) (iblk2 V c 0 t) (iblk2 V c 1 t) (iblk2 V c 2 t) (ix2 p q)
      = whole V c (((cfg2.win 3).blk t).view.emb (ix2 p q))
  rw [he]
  refine (Cert.KernelIdeal.Body.pay2_apply (iblk2 V c 0 t) (iblk2 V c 1 t) (iblk2 V c 2 t) p q).trans ?_
  refine Eq.trans ?_ (Cert.Affine.lin_ix2 _ _ _ _ q).symm
  refine congrArg₂ (· + ·) (Finset.sum_congr rfl fun k _ => congrArg₂ (· * ·) ?_ ?_) ?_
  · exact xblk_apply V c t (ix2 p k) (ix2 (⟨t.val * 10000 + p.val, hP⟩ : Fin 100000) k) rfl rfl
  · exact wblk_apply V c t (ix2 k q)
  · exact bblk_apply V c t (ix2 (0 : Fin 1) q)

/-- An index of the result is in point t's block iff each coordinate is in the block's range on its axis. -/
theorem mem_blk (t : Fin cfg2.N) (i : S100000x10.Idx) :
    i ∈ ((cfg2.win 3).blk t).view.set ↔ ∀ a : Fin 2, win2_3.index t a * S10000x10.size a ≤ (i a).val
      ∧ (i a).val < win2_3.index t a * S10000x10.size a + S10000x10.size a := by
  show i ∈ ((View.whole main_v106).slice (win2_3.rect t)).set ↔ _
  rw [View.set_slice_whole, Rect.mem_set_unit]
  exact Iff.rfl

/-- Every row r of the result is in the block of point r / 10000. -/
theorem cover (i : S100000x10.Idx) :
    ∃ t : Fin cfg2.N, (cfg2.win 3).flush t = true ∧ i ∈ ((cfg2.win 3).blk t).view.set := by
  have hi0 : (i 0).val < 100000 := idx2_lt0 i
  have hi1 : (i 1).val < 10 := idx2_lt1 i
  have hN : cfg2.N = 10 := N_2
  have hlt : (i 0).val / 10000 < cfg2.N := by rw [hN]; omega
  obtain ⟨-, -, -, -, -, -, e6, e7⟩ := idx_facts ⟨(i 0).val / 10000, hlt⟩
  refine ⟨⟨(i 0).val / 10000, hlt⟩, flush2_3 _, ?_⟩
  rw [mem_blk]
  intro a
  match a with
  | ⟨0, _⟩ =>
    show win2_3.index ⟨(i 0).val / 10000, hlt⟩ 0 * 10000 ≤ (i 0).val
      ∧ (i 0).val < win2_3.index ⟨(i 0).val / 10000, hlt⟩ 0 * 10000 + 10000
    rw [e6]
    show (i 0).val / 10000 * 10000 ≤ (i 0).val ∧ (i 0).val < (i 0).val / 10000 * 10000 + 10000
    omega
  | ⟨1, _⟩ =>
    show win2_3.index ⟨(i 0).val / 10000, hlt⟩ 1 * 10 ≤ (i 1).val
      ∧ (i 1).val < win2_3.index ⟨(i 0).val / 10000, hlt⟩ 1 * 10 + 10
    rw [e7]
    omega

/-- After the region the result array is the affine map of the arrays as the region found them. -/
theorem final (c : Dev nD) : (dat2 V c).arrAt 3 cfg2.N = whole V c :=
  (dat2 V c).arrAt_eq_of_cover 3 (whole V c) (fun t _ => flushed_eq V c t) cover

end Cert.KernelIdeal.Region2

end
-- ==== Proof.AffineHost.lean ====
/-
  The reference's last line as the affine map: a host dot product of x [M, K] and w [K, N], plus a vector v of N
  entries laid along every row, is at entry (p, q) the sum over k of x[p, k] · w[k, q], plus v[q] — the affine map
  whose one-row bias is v read as a [1, N] matrix.
-/
import proofs.«163706_j46858093199625_1_alg».proof.Proof.Affine

noncomputable section

namespace Cert.Affine

open Idealize.ShloMosaic Idealize.ShloMosaic.ValueIdx

theorem dot_add_rows_eq_lin {M K N : Nat} {φ₁ φ₂ : FTy} (prec : Option ContractPrecision) (sched : HostSchedule)
    (x : FVec Ideal ⟨2, ![M, K]⟩ φ₁) (w : FVec Ideal ⟨2, ![K, N]⟩ φ₂) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    (addf (FloatOps.dotGeneral (DotDims.plain M K N) prec sched x w)
        (broadcastInDim ⟨2, ![M, N]⟩ ![0, 1] h2 (broadcastInDim ⟨2, ![1, N]⟩ ![1] h1 v)) : (⟨2, ![M, N]⟩ : Shape).Idx → EReal)
      = lin x w (shapeCast ⟨2, ![1, N]⟩ v hc) := by
  funext i
  obtain ⟨p, q, rfl⟩ : ∃ (p : Fin M) (q : Fin N), i = ix2 p q := ⟨i 0, i 1, eq_ix2 i⟩
  rw [lin_ix2, Cert.LibLreluRows.rowCast_apply hc v q]
  show FloatOps.dotGeneral (DotDims.plain M K N) prec sched x w (ix2 p q)
      + broadcastInDim ⟨2, ![M, N]⟩ ![0, 1] h2 (broadcastInDim ⟨2, ![1, N]⟩ ![1] h1 v) (ix2 p q) = _
  rw [Cert.LibPlainContract.dotGeneral_plain_apply M K N prec sched x w p q, Cert.LibLreluRows.biasRows_apply h1 h2 v p q]

end Cert.Affine

end
-- ==== Proof.Bridge.lean ====
/-
  The kernel program's result is the reference's, on equal arguments.

  The kernel program's segment boundaries are walked from the launch memory beside the reference's prefixes. At each
  boundary the buffers that later lines read hold the same values in both programs: through the host chunks because
  they are the same operations on equal inputs; through each tiled product because its array is the affine map of the
  rows — x·w plus a zero row for the two layers, which is the reference's dot product since s + 0 = s for every
  extended real s, and x·w plus the bias vector as one row for the read-out, which is the reference's dot product plus
  the bias laid along every row.
-/
import proofs.«163706_j46858093199625_1_alg».proof.Proof.Gen.KernelIdeal.Frame
import proofs.«163706_j46858093199625_1_alg».proof.Proof.SimPre
import proofs.«163706_j46858093199625_1_alg».proof.Proof.SimLayers
import proofs.«163706_j46858093199625_1_alg».proof.Proof.KernelOnly
import proofs.«163706_j46858093199625_1_alg».proof.Proof.Region0
import proofs.«163706_j46858093199625_1_alg».proof.Proof.Region1
import proofs.«163706_j46858093199625_1_alg».proof.Proof.Region2
import proofs.«163706_j46858093199625_1_alg».proof.Proof.AffineHost

set_option maxRecDepth 16384

noncomputable section

namespace Cert.Sim

open Cert.KernelIdeal Cert.KernelIdeal.Gen Cert.KernelIdeal.Stages
open Idealize.ShloMosaic Idealize.ShloMosaic.TcCoe Idealize.SL.Sem
open Idealize.ShloMosaic.StableHlo
open Cert.ReferenceIdeal.ValueP (ops)

/-- Running a slice after a prefix gives the longer prefix, read at one buffer. -/
theorem step (Vr : RV) (a n s : Nat) (hs : a + n = s) (b : DevRef Cert.ReferenceIdeal.τ Cert.ReferenceIdeal.sig) :
    after (slice a n) (Rpre Vr a) b = Rpre Vr s b := by
  subst hs
  exact congrFun (Rpre_step Vr a n) b

theorem step0 (Vr : RV) (n : Nat) (b : DevRef Cert.ReferenceIdeal.τ Cert.ReferenceIdeal.sig) : after (slice 0 n) Vr b = Rpre Vr n b := by
  have h := congrFun (Rpre_step Vr 0 n) b
  rw [Nat.zero_add] at h
  exact h

/-! ## Before the first product -/

theorem f1_v1 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_v1) = (Rpre Vr 21) (Proc.devRef .tc Cert.ReferenceIdeal.main_v1) :=
  (c0_v1 (W0 m ρ c) Vr hA.a1).trans (step0 Vr 21 _)

theorem f1_v3 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_v3) = (Rpre Vr 21) (Proc.devRef .tc Cert.ReferenceIdeal.main_v3) :=
  (c0_v3 (W0 m ρ c) Vr hA.a1).trans (step0 Vr 21 _)

theorem f1_v9 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_v9) = (Rpre Vr 21) (Proc.devRef .tc Cert.ReferenceIdeal.main_v9) :=
  (c0_v9 (W0 m ρ c) Vr hA.a2).trans (step0 Vr 21 _)

theorem f1_v14 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_v14) = (Rpre Vr 21) (Proc.devRef .tc Cert.ReferenceIdeal.main_v14) :=
  (c0_v14 (W0 m ρ c) Vr hA.a1 hA.a2).trans (step0 Vr 21 _)

theorem f1_v15 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_v15) = (Rpre Vr 21) (Proc.devRef .tc Cert.ReferenceIdeal.main_v15) :=
  (c0_v15 (W0 m ρ c) Vr hA.a1 hA.a2).trans (step0 Vr 21 _)

theorem f1_cst3 (m : (ℓ : Loc nD τ sig) → Buf (Elt Ideal) ℓ) (ρ : Dev nD → PrngReg) (c : Dev nD) (Vr : RV) (hA : Agree (W0 m ρ c) Vr) :
    (W1 m ρ c) (Proc.devRef .tc Cert.KernelIdeal.main_cst_3) = (Rpre Vr 21) (Proc.devRef .tc Cert.ReferenceIdeal.main_cst_3) :=
  (c0_cst3 (W0 m ρ c) Vr).trans (step0 Vr 21 _)

theorem f2_v16 (m : (ℓ : Loc nD τ sig) → Buf (Elt Ideal) ℓ) (ρ : Dev nD → PrngReg) (c : Dev nD) (Vr : RV) (hA : Agree (W0 m ρ c) Vr) :
    (W2 m ρ c) (Proc.devRef .tc Cert.KernelIdeal.main_v16) = (Rpre Vr 24) (Proc.devRef .tc Cert.ReferenceIdeal.main_v16) :=
  (c1_v16 (W1 m ρ c) (Rpre Vr 21) (f1_v14 m ρ c Vr hA) (f1_v15 m ρ c Vr hA) (f1_cst3 m ρ c Vr hA)).trans (step Vr 21 3 24 rfl _)

theorem f2_v1 (m : (ℓ : Loc nD τ sig) → Buf (Elt Ideal) ℓ) (ρ : Dev nD → PrngReg) (c : Dev nD) (Vr : RV) (hA : Agree (W0 m ρ c) Vr) :
    (W2 m ρ c) (Proc.devRef .tc Cert.KernelIdeal.main_v1) = (Rpre Vr 24) (Proc.devRef .tc Cert.ReferenceIdeal.main_v1) :=
  (kK1_v1 (W1 m ρ c)).trans ((f1_v1 m ρ c Vr hA).trans ((kR21_v1 (Rpre Vr 21)).symm.trans (step Vr 21 3 24 rfl _)))

theorem f2_v3 (m : (ℓ : Loc nD τ sig) → Buf (Elt Ideal) ℓ) (ρ : Dev nD → PrngReg) (c : Dev nD) (Vr : RV) (hA : Agree (W0 m ρ c) Vr) :
    (W2 m ρ c) (Proc.devRef .tc Cert.KernelIdeal.main_v3) = (Rpre Vr 24) (Proc.devRef .tc Cert.ReferenceIdeal.main_v3) :=
  (kK1_v3 (W1 m ρ c)).trans ((f1_v3 m ρ c Vr hA).trans ((kR21_v3 (Rpre Vr 21)).symm.trans (step Vr 21 3 24 rfl _)))

theorem f2_v9 (m : (ℓ : Loc nD τ sig) → Buf (Elt Ideal) ℓ) (ρ : Dev nD → PrngReg) (c : Dev nD) (Vr : RV) (hA : Agree (W0 m ρ c) Vr) :
    (W2 m ρ c) (Proc.devRef .tc Cert.KernelIdeal.main_v9) = (Rpre Vr 24) (Proc.devRef .tc Cert.ReferenceIdeal.main_v9) :=
  (kK1_v9 (W1 m ρ c)).trans ((f1_v9 m ρ c Vr hA).trans ((kR21_v9 (Rpre Vr 21)).symm.trans (step Vr 21 3 24 rfl _)))

theorem f3_v34 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_v34) = (Rpre Vr 59) (Proc.devRef .tc Cert.ReferenceIdeal.main_v34) :=
  (c2_v34 (W2 m ρ c) (Rpre Vr 24) (f2_v1 m ρ c Vr hA)).trans (step Vr 24 35 59 rfl _)

theorem f3_v35 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_v35) = (Rpre Vr 59) (Proc.devRef .tc Cert.ReferenceIdeal.main_v35) :=
  (c2_v35 (W2 m ρ c) (Rpre Vr 24) (f2_v3 m ρ c Vr hA)).trans (step Vr 24 35 59 rfl _)

theorem f3_v37 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_v37) = (Rpre Vr 59) (Proc.devRef .tc Cert.ReferenceIdeal.main_v37) :=
  (c2_v37 (W2 m ρ c) (Rpre Vr 24) (f2_v1 m ρ c Vr hA) (f2_v3 m ρ c Vr hA) (f2_v9 m ρ c Vr hA) (f2_v16 m ρ c Vr hA)).trans (step Vr 24 35 59 rfl _)

theorem f3_v42 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_v42) = (Rpre Vr 59) (Proc.devRef .tc Cert.ReferenceIdeal.main_v42) :=
  (c2_v42 (W2 m ρ c) (Rpre Vr 24) (f2_v1 m ρ c Vr hA) (f2_v3 m ρ c Vr hA) (f2_v9 m ρ c Vr hA) (f2_v16 m ρ c Vr hA)).trans (step Vr 24 35 59 rfl _)

theorem f3_v43 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_v43) = (Rpre Vr 59) (Proc.devRef .tc Cert.ReferenceIdeal.main_v43) :=
  (c2_v43 (W2 m ρ c) (Rpre Vr 24) (f2_v1 m ρ c Vr hA) (f2_v3 m ρ c Vr hA) (f2_v9 m ρ c Vr hA) (f2_v16 m ρ c Vr hA)).trans (step Vr 24 35 59 rfl _)

theorem f3_cst10 (m : (ℓ : Loc nD τ sig) → Buf (Elt Ideal) ℓ) (ρ : Dev nD → PrngReg) (c : Dev nD) (Vr : RV) (hA : Agree (W0 m ρ c) Vr) :
    (W3 m ρ c) (Proc.devRef .tc Cert.KernelIdeal.main_cst_10) = (Rpre Vr 59) (Proc.devRef .tc Cert.ReferenceIdeal.main_cst_10) :=
  (c2_cst10 (W2 m ρ c) (Rpre Vr 24)).trans (step Vr 24 35 59 rfl _)

theorem f4_v44 (m : (ℓ : Loc nD τ sig) → Buf (Elt Ideal) ℓ) (ρ : Dev nD → PrngReg) (c : Dev nD) (Vr : RV) (hA : Agree (W0 m ρ c) Vr) :
    (W4 m ρ c) (Proc.devRef .tc Cert.KernelIdeal.main_v44) = (Rpre Vr 62) (Proc.devRef .tc Cert.ReferenceIdeal.main_v44) :=
  (c3_v44 (W3 m ρ c) (Rpre Vr 59) (f3_v42 m ρ c Vr hA) (f3_v43 m ρ c Vr hA) (f3_cst10 m ρ c Vr hA)).trans (step Vr 59 3 62 rfl _)

theorem f4_v34 (m : (ℓ : Loc nD τ sig) → Buf (Elt Ideal) ℓ) (ρ : Dev nD → PrngReg) (c : Dev nD) (Vr : RV) (hA : Agree (W0 m ρ c) Vr) :
    (W4 m ρ c) (Proc.devRef .tc Cert.KernelIdeal.main_v34) = (Rpre Vr 62) (Proc.devRef .tc Cert.ReferenceIdeal.main_v34) :=
  (kK3_v34 (W3 m ρ c)).trans ((f3_v34 m ρ c Vr hA).trans ((kR59_v34 (Rpre Vr 59)).symm.trans (step Vr 59 3 62 rfl _)))

theorem f4_v35 (m : (ℓ : Loc nD τ sig) → Buf (Elt Ideal) ℓ) (ρ : Dev nD → PrngReg) (c : Dev nD) (Vr : RV) (hA : Agree (W0 m ρ c) Vr) :
    (W4 m ρ c) (Proc.devRef .tc Cert.KernelIdeal.main_v35) = (Rpre Vr 62) (Proc.devRef .tc Cert.ReferenceIdeal.main_v35) :=
  (kK3_v35 (W3 m ρ c)).trans ((f3_v35 m ρ c Vr hA).trans ((kR59_v35 (Rpre Vr 59)).symm.trans (step Vr 59 3 62 rfl _)))

theorem f4_v37 (m : (ℓ : Loc nD τ sig) → Buf (Elt Ideal) ℓ) (ρ : Dev nD → PrngReg) (c : Dev nD) (Vr : RV) (hA : Agree (W0 m ρ c) Vr) :
    (W4 m ρ c) (Proc.devRef .tc Cert.KernelIdeal.main_v37) = (Rpre Vr 62) (Proc.devRef .tc Cert.ReferenceIdeal.main_v37) :=
  (kK3_v37 (W3 m ρ c)).trans ((f3_v37 m ρ c Vr hA).trans ((kR59_v37 (Rpre Vr 59)).symm.trans (step Vr 59 3 62 rfl _)))

theorem f5_v60 (m : (ℓ : Loc nD τ sig) → Buf (Elt Ideal) ℓ) (ρ : Dev nD → PrngReg) (c : Dev nD) (Vr : RV) (hA : Agree (W0 m ρ c) Vr) :
    (W5 m ρ c) (Proc.devRef .tc Cert.KernelIdeal.main_v60) = (Rpre Vr 82) (Proc.devRef .tc Cert.ReferenceIdeal.main_v60) :=
  (c4_v60 (W4 m ρ c) (Rpre Vr 62) (f4_v34 m ρ c Vr hA) (f4_v35 m ρ c Vr hA) (f4_v37 m ρ c Vr hA) (f4_v44 m ρ c Vr hA)).trans (step Vr 62 20 82 rfl _)

theorem f5_v34 (m : (ℓ : Loc nD τ sig) → Buf (Elt Ideal) ℓ) (ρ : Dev nD → PrngReg) (c : Dev nD) (Vr : RV) (hA : Agree (W0 m ρ c) Vr) :
    (W5 m ρ c) (Proc.devRef .tc Cert.KernelIdeal.main_v34) = (Rpre Vr 82) (Proc.devRef .tc Cert.ReferenceIdeal.main_v34) :=
  (kK4_v34 (W4 m ρ c)).trans ((f4_v34 m ρ c Vr hA).trans ((kR62_v34 (Rpre Vr 62)).symm.trans (step Vr 62 20 82 rfl _)))

theorem f5_v35 (m : (ℓ : Loc nD τ sig) → Buf (Elt Ideal) ℓ) (ρ : Dev nD → PrngReg) (c : Dev nD) (Vr : RV) (hA : Agree (W0 m ρ c) Vr) :
    (W5 m ρ c) (Proc.devRef .tc Cert.KernelIdeal.main_v35) = (Rpre Vr 82) (Proc.devRef .tc Cert.ReferenceIdeal.main_v35) :=
  (kK4_v35 (W4 m ρ c)).trans ((f4_v35 m ρ c Vr hA).trans ((kR62_v35 (Rpre Vr 62)).symm.trans (step Vr 62 20 82 rfl _)))

/-! ## Through the first product -/

theorem f6_v60 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_v60) = (Rpre Vr 83) (Proc.devRef .tc Cert.ReferenceIdeal.main_v60) :=
  (W6_of_ne m ρ c main_v60 (by decide)).trans ((f5_v60 m ρ c Vr hA).trans ((kR82_v60 (Rpre Vr 82)).symm.trans (step Vr 82 1 83 rfl _)))

theorem f6_v34 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_v34) = (Rpre Vr 83) (Proc.devRef .tc Cert.ReferenceIdeal.main_v34) :=
  (W6_of_ne m ρ c main_v34 (by decide)).trans ((f5_v34 m ρ c Vr hA).trans ((kR82_v34 (Rpre Vr 82)).symm.trans (step Vr 82 1 83 rfl _)))

theorem f6_v35 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_v35) = (Rpre Vr 83) (Proc.devRef .tc Cert.ReferenceIdeal.main_v35) :=
  (W6_of_ne m ρ c main_v35 (by decide)).trans ((f5_v35 m ρ c Vr hA).trans ((kR82_v35 (Rpre Vr 82)).symm.trans (step Vr 82 1 83 rfl _)))

theorem w6_arg4 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_arg4) = Vr (Proc.devRef .tc Cert.ReferenceIdeal.main_arg4) :=
  (W6_of_ne m ρ c main_arg4 (by decide)).trans ((pre_arg4 (W0 m ρ c)).trans hA.a4)

theorem w6_arg5 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_arg5) = Vr (Proc.devRef .tc Cert.ReferenceIdeal.main_arg5) :=
  (W6_of_ne m ρ c main_arg5 (by decide)).trans ((pre_arg5 (W0 m ρ c)).trans hA.a5)

theorem w6_arg6 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_arg6) = Vr (Proc.devRef .tc Cert.ReferenceIdeal.main_arg6) :=
  (W6_of_ne m ρ c main_arg6 (by decide)).trans ((pre_arg6 (W0 m ρ c)).trans hA.a6)

theorem w6_arg7 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_arg7) = Vr (Proc.devRef .tc Cert.ReferenceIdeal.main_arg7) :=
  (W6_of_ne m ρ c main_arg7 (by decide)).trans ((pre_arg7 (W0 m ρ c)).trans hA.a7)

theorem w6_arg8 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_arg8) = Vr (Proc.devRef .tc Cert.ReferenceIdeal.main_arg8) :=
  (W6_of_ne m ρ c main_arg8 (by decide)).trans ((pre_arg8 (W0 m ρ c)).trans hA.a8)

/-- The first product's array is the reference's first dot product. -/
theorem f6_v64 (m : (ℓ : Loc nD τ sig) → Buf (Elt Ideal) ℓ) (ρ : Dev nD → PrngReg) (c : Dev nD) (Vr : RV) (hA : Agree (W0 m ρ c) Vr) :
    (W6 m ρ c) (Proc.devRef .tc Cert.KernelIdeal.main_v64) = (Rpre Vr 83) (Proc.devRef .tc Cert.ReferenceIdeal.main_v61) := by
  refine (W6_arr m ρ c 3).trans ?_
  rw [Region0.final (V5 m ρ) c]
  have ex : (V5 m ρ c main_v62 : S100000x128.Idx → EReal) = Vr (Proc.devRef .tc Cert.ReferenceIdeal.main_arg0) := (pre_v62 (W0 m ρ c)).trans hA.a0
  have ew : (V5 m ρ c main_v63 : S128x64.Idx → EReal) = Vr (Proc.devRef .tc Cert.ReferenceIdeal.main_arg3) := (pre_v63 (W0 m ρ c)).trans hA.a3
  have eb : ∀ j, (V5 m ρ c main_v61 : S1x64.Idx → EReal) j = (0 : EReal) := pre_v61 (W0 m ρ c)
  have er : (Rpre Vr 83) (Proc.devRef .tc Cert.ReferenceIdeal.main_v61)
      = Host.dotGeneral (F := Ideal) (φ₁ := .f32) (φ₂ := .f32) Cert.ReferenceIdeal.dot_S100000x128_S128x64_S100000x64_1_0_0_1_n_n none
          (Vr (Proc.devRef .tc Cert.ReferenceIdeal.main_arg0) : FVec Ideal Cert.ReferenceIdeal.S100000x128 .f32)
          (Vr (Proc.devRef .tc Cert.ReferenceIdeal.main_arg3) : FVec Ideal Cert.ReferenceIdeal.S128x64 .f32) := by
    rw [← step Vr 82 1 83 rfl, rd0, Rpre_arg0, Rpre_arg3]
  rw [er]
  show Cert.Affine.lin (V5 m ρ c main_v62 : S100000x128.Idx → EReal) (V5 m ρ c main_v63 : S128x64.Idx → EReal)
      (V5 m ρ c main_v61 : S1x64.Idx → EReal) = _
  rw [ex, ew]
  exact (Cert.Affine.dot_eq_lin_zero none _ _ _ _ eb).symm

/-! ## The first layer and the second product -/

theorem f7_v80 (m : (ℓ : Loc nD τ sig) → Buf (Elt Ideal) ℓ) (ρ : Dev nD → PrngReg) (c : Dev nD) (Vr : RV) (hA : Agree (W0 m ρ c) Vr) :
    (W7 m ρ c) (Proc.devRef .tc Cert.KernelIdeal.main_v80) = (Rpre Vr 102) (Proc.devRef .tc Cert.ReferenceIdeal.main_v77) :=
  (c5_v80 (W6 m ρ c) (Rpre Vr 83) (f6_v60 m ρ c Vr hA) (f6_v34 m ρ c Vr hA) (f6_v35 m ρ c Vr hA) (f6_v64 m ρ c Vr hA) ((w6_arg4 m ρ c Vr hA).trans (Rpre_arg4 Vr 83).symm)).trans (step Vr 83 19 102 rfl _)

theorem f8_v81 (m : (ℓ : Loc nD τ sig) → Buf (Elt Ideal) ℓ) (ρ : Dev nD → PrngReg) (c : Dev nD) (Vr : RV) (hA : Agree (W0 m ρ c) Vr) :
    (W8 m ρ c) (Proc.devRef .tc Cert.KernelIdeal.main_v81) = (Rpre Vr 105) (Proc.devRef .tc Cert.ReferenceIdeal.main_v78) :=
  (c6_v81 (W7 m ρ c) (Rpre Vr 102) (f7_v80 m ρ c Vr hA)).trans (step Vr 102 3 105 rfl _)

theorem f9_v83 (m : (ℓ : Loc nD τ sig) → Buf (Elt Ideal) ℓ) (ρ : Dev nD → PrngReg) (c : Dev nD) (Vr : RV) (hA : Agree (W0 m ρ c) Vr) :
    ((W9 m ρ c) (Proc.devRef .tc Cert.KernelIdeal.main_v83) : S100000x64.Idx → EReal) = (Rpre Vr 105) (Proc.devRef .tc Cert.ReferenceIdeal.main_v78) :=
  (k7_v83 (W8 m ρ c)).trans (f8_v81 m ρ c Vr hA)

theorem rkeep_v60 (Vr : RV) : (Rpre Vr 106) (Proc.devRef .tc Cert.ReferenceIdeal.main_v60) = (Rpre Vr 83) (Proc.devRef .tc Cert.ReferenceIdeal.main_v60) :=
  ((step Vr 105 1 106 rfl _).symm.trans (kR105_v60 (Rpre Vr 105))).trans (((step Vr 102 3 105 rfl _).symm.trans (kR102_v60 (Rpre Vr 102))).trans ((step Vr 83 19 102 rfl _).symm.trans (kR83_v60 (Rpre Vr 83))))

theorem rkeep_v34 (Vr : RV) : (Rpre Vr 106) (Proc.devRef .tc Cert.ReferenceIdeal.main_v34) = (Rpre Vr 83) (Proc.devRef .tc Cert.ReferenceIdeal.main_v34) :=
  ((step Vr 105 1 106 rfl _).symm.trans (kR105_v34 (Rpre Vr 105))).trans (((step Vr 102 3 105 rfl _).symm.trans (kR102_v34 (Rpre Vr 102))).trans ((step Vr 83 19 102 rfl _).symm.trans (kR83_v34 (Rpre Vr 83))))

theorem rkeep_v35 (Vr : RV) : (Rpre Vr 106) (Proc.devRef .tc Cert.ReferenceIdeal.main_v35) = (Rpre Vr 83) (Proc.devRef .tc Cert.ReferenceIdeal.main_v35) :=
  ((step Vr 105 1 106 rfl _).symm.trans (kR105_v35 (Rpre Vr 105))).trans (((step Vr 102 3 105 rfl _).symm.trans (kR102_v35 (Rpre Vr 102))).trans ((step Vr 83 19 102 rfl _).symm.trans (kR83_v35 (Rpre Vr 83))))

theorem f10_v60 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_v60) = (Rpre Vr 106) (Proc.devRef .tc Cert.ReferenceIdeal.main_v60) :=
  (W10_of_ne m ρ c main_v60 (by decide)).trans ((mid1_v60 (W6 m ρ c)).trans ((f6_v60 m ρ c Vr hA).trans (rkeep_v60 Vr).symm))

theorem f10_v34 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_v34) = (Rpre Vr 106) (Proc.devRef .tc Cert.ReferenceIdeal.main_v34) :=
  (W10_of_ne m ρ c main_v34 (by decide)).trans ((mid1_v34 (W6 m ρ c)).trans ((f6_v34 m ρ c Vr hA).trans (rkeep_v34 Vr).symm))

theorem f10_v35 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_v35) = (Rpre Vr 106) (Proc.devRef .tc Cert.ReferenceIdeal.main_v35) :=
  (W10_of_ne m ρ c main_v35 (by decide)).trans ((mid1_v35 (W6 m ρ c)).trans ((f6_v35 m ρ c Vr hA).trans (rkeep_v35 Vr).symm))

theorem w10_arg6 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_arg6) = Vr (Proc.devRef .tc Cert.ReferenceIdeal.main_arg6) :=
  (W10_of_ne m ρ c main_arg6 (by decide)).trans ((mid1_arg6 (W6 m ρ c)).trans (w6_arg6 m ρ c Vr hA))

theorem w10_arg7 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_arg7) = Vr (Proc.devRef .tc Cert.ReferenceIdeal.main_arg7) :=
  (W10_of_ne m ρ c main_arg7 (by decide)).trans ((mid1_arg7 (W6 m ρ c)).trans (w6_arg7 m ρ c Vr hA))

theorem w10_arg8 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_arg8) = Vr (Proc.devRef .tc Cert.ReferenceIdeal.main_arg8) :=
  (W10_of_ne m ρ c main_arg8 (by decide)).trans ((mid1_arg8 (W6 m ρ c)).trans (w6_arg8 m ρ c Vr hA))

/-- The second product's array is the reference's second dot product. -/
theorem f10_v85 (m : (ℓ : Loc nD τ sig) → Buf (Elt Ideal) ℓ) (ρ : Dev nD → PrngReg) (c : Dev nD) (Vr : RV) (hA : Agree (W0 m ρ c) Vr) :
    (W10 m ρ c) (Proc.devRef .tc Cert.KernelIdeal.main_v85) = (Rpre Vr 106) (Proc.devRef .tc Cert.ReferenceIdeal.main_v79) := by
  refine (W10_arr m ρ c 3).trans ?_
  rw [Region1.final (V9 m ρ) c]
  have ex : (V9 m ρ c main_v83 : S100000x64.Idx → EReal) = (Rpre Vr 105) (Proc.devRef .tc Cert.ReferenceIdeal.main_v78) := f9_v83 m ρ c Vr hA
  have ew : (V9 m ρ c main_v84 : S64x64.Idx → EReal) = Vr (Proc.devRef .tc Cert.ReferenceIdeal.main_arg5) := (mid1_v84 (W6 m ρ c)).trans (w6_arg5 m ρ c Vr hA)
  have eb : ∀ j, (V9 m ρ c main_v82 : S1x64.Idx → EReal) j = (0 : EReal) := mid1_v82 (W6 m ρ c)
  have er : (Rpre Vr 106) (Proc.devRef .tc Cert.ReferenceIdeal.main_v79)
      = Host.dotGeneral (F := Ideal) (φ₁ := .f32) (φ₂ := .f32) Cert.ReferenceIdeal.dot_S100000x64_S64x64_S100000x64_1_0_0_1_n_n none
          ((Rpre Vr 105) (Proc.devRef .tc Cert.ReferenceIdeal.main_v78) : FVec Ideal Cert.ReferenceIdeal.S100000x64 .f32)
          (Vr (Proc.devRef .tc Cert.ReferenceIdeal.main_arg5) : FVec Ideal Cert.ReferenceIdeal.S64x64 .f32) := by
    rw [← step Vr 105 1 106 rfl, rd1, Rpre_arg5]
  rw [er]
  show Cert.Affine.lin (V9 m ρ c main_v83 : S100000x64.Idx → EReal) (V9 m ρ c main_v84 : S64x64.Idx → EReal)
      (V9 m ρ c main_v82 : S1x64.Idx → EReal) = _
  rw [ex, ew]
  exact (Cert.Affine.dot_eq_lin_zero none _ _ _ _ eb).symm

/-! ## The second layer and the third product -/

theorem f11_v101 (m : (ℓ : Loc nD τ sig) → Buf (Elt Ideal) ℓ) (ρ : Dev nD → PrngReg) (c : Dev nD) (Vr : RV) (hA : Agree (W0 m ρ c) Vr) :
    (W11 m ρ c) (Proc.devRef .tc Cert.KernelIdeal.main_v101) = (Rpre Vr 125) (Proc.devRef .tc Cert.ReferenceIdeal.main_v95) :=
  (c8_v101 (W10 m ρ c) (Rpre Vr 106) (f10_v60 m ρ c Vr hA) (f10_v34 m ρ c Vr hA) (f10_v35 m ρ c Vr hA) (f10_v85 m ρ c Vr hA) ((w10_arg6 m ρ c Vr hA).trans (Rpre_arg6 Vr 106).symm)).trans (step Vr 106 19 125 rfl _)

theorem f12_v102 (m : (ℓ : Loc nD τ sig) → Buf (Elt Ideal) ℓ) (ρ : Dev nD → PrngReg) (c : Dev nD) (Vr : RV) (hA : Agree (W0 m ρ c) Vr) :
    (W12 m ρ c) (Proc.devRef .tc Cert.KernelIdeal.main_v102) = (Rpre Vr 128) (Proc.devRef .tc Cert.ReferenceIdeal.main_v96) :=
  (c9_v102 (W11 m ρ c) (Rpre Vr 125) (f11_v101 m ρ c Vr hA)).trans (step Vr 125 3 128 rfl _)

theorem f13_v104 (m : (ℓ : Loc nD τ sig) → Buf (Elt Ideal) ℓ) (ρ : Dev nD → PrngReg) (c : Dev nD) (Vr : RV) (hA : Agree (W0 m ρ c) Vr) :
    ((W13 m ρ c) (Proc.devRef .tc Cert.KernelIdeal.main_v104) : S100000x64.Idx → EReal) = (Rpre Vr 128) (Proc.devRef .tc Cert.ReferenceIdeal.main_v96) :=
  (k10_v104 (W12 m ρ c)).trans (f12_v102 m ρ c Vr hA)

/-- The kernel program's result is the reference's result. -/
theorem result_eq (m : (ℓ : Loc nD τ sig) → Buf (Elt Ideal) ℓ) (ρ : Dev nD → PrngReg) (c : Dev nD) (Vr : RV) (hA : Agree (W0 m ρ c) Vr) :
    (W14 m ρ c) (Proc.devRef .tc Cert.KernelIdeal.main_v106) = after (ops (F := Ideal)) Vr (Proc.devRef .tc Cert.ReferenceIdeal.main_v100) := by
  refine (W14_arr m ρ c 3).trans ?_
  rw [Region2.final (V13 m ρ) c]
  have ex : (V13 m ρ c main_v104 : S100000x64.Idx → EReal) = (Rpre Vr 128) (Proc.devRef .tc Cert.ReferenceIdeal.main_v96) := f13_v104 m ρ c Vr hA
  have ew : (V13 m ρ c main_v105 : S64x10.Idx → EReal) = Vr (Proc.devRef .tc Cert.ReferenceIdeal.main_arg7) := (mid2_v105 (W10 m ρ c)).trans (w10_arg7 m ρ c Vr hA)
  have eb : (V13 m ρ c main_v103 : S1x10.Idx → EReal)
      = shapeCast S1x10 (Vr (Proc.devRef .tc Cert.ReferenceIdeal.main_arg8) : S10.Idx → EReal) shapeCasts_S10_S1x10 :=
    (mid2_v103 (W10 m ρ c)).trans (by rw [w10_arg8 m ρ c Vr hA])
  have er : after (ops (F := Ideal)) Vr (Proc.devRef .tc Cert.ReferenceIdeal.main_v100)
      = addf (Host.dotGeneral (F := Ideal) (φ₁ := .f32) (φ₂ := .f32) Cert.ReferenceIdeal.dot_S100000x64_S64x10_S100000x10_1_0_0_1_n_n none
          ((Rpre Vr 128) (Proc.devRef .tc Cert.ReferenceIdeal.main_v96) : FVec Ideal Cert.ReferenceIdeal.S100000x64 .f32)
          (Vr (Proc.devRef .tc Cert.ReferenceIdeal.main_arg7) : FVec Ideal Cert.ReferenceIdeal.S64x10 .f32))
        (broadcastInDim Cert.ReferenceIdeal.S100000x10 ![0, 1] Cert.ReferenceIdeal.Gen.bcast_S1x10_S100000x10_0_1
          (broadcastInDim Cert.ReferenceIdeal.S1x10 ![1] Cert.ReferenceIdeal.Gen.bcast_S10_S1x10_1
            (Vr (Proc.devRef .tc Cert.ReferenceIdeal.main_arg8) : FVec Ideal Cert.ReferenceIdeal.S10 .f32))) := by
    rw [← Rpre_all, ← step Vr 128 4 132 rfl, rd2, Rpre_arg7, Rpre_arg8]
  rw [er]
  show Cert.Affine.lin (V13 m ρ c main_v104 : S100000x64.Idx → EReal) (V13 m ρ c main_v105 : S64x10.Idx → EReal)
      (V13 m ρ c main_v103 : S1x10.Idx → EReal) = _
  rw [ex, ew, eb]
  exact (Cert.Affine.dot_add_rows_eq_lin none _ _ _ _ _ _ _).symm

end Cert.Sim

end
-- ==== Proof.lean ====
/-
  A two-layer graph convolution with a linear read-out, its three matrix products tiled over the 100000 node rows,
  against the same network written with plain dot products.

  Both programs compute, from node features x [100000, 128], an edge list [2, 1600000] and edge times [1600000]:
  edge weights decaying with age, normalised symmetrically by the square roots of the weighted degrees, self loops of
  weight one joined on and normalised again; then twice  h ← max(0, (sum over the edges into a node of the edge's
  weight · (h·W)[source]) + b);  then  h·Wout + bout. Everything but the three products h·W is the same sequence of host
  operations on both sides, applied to equal values, and is never opened here. Each tiled product computes, ten
  blocks of 10000 rows at a time,  x·w + (a one-row bias) : the bias row is zero for the two layers (and s + 0 = s for
  every extended real s, so no finiteness of the inputs is used) and the read-out's bias vector for the last. The
  narrowing of the products' operands to a shorter float format is the identity on the extended reals, and a matrix
  unit's product into a zero accumulator and a host dot product are the same sum over the contracted axis.

  The frames of the two kernel programs are the generated ones; the reference's frame and value are its run over the
  list of its host operations; the idealised program rewrote nothing of the printed one.
-/
import proofs.«163706_j46858093199625_1_alg».proof.Defs
import proofs.«163706_j46858093199625_1_alg».proof.Proof.Gen.Kernel
import proofs.«163706_j46858093199625_1_alg».proof.Proof.Gen.Kernel.Skeleton
import proofs.«163706_j46858093199625_1_alg».proof.Proof.Gen.Kernel.Launch
import proofs.«163706_j46858093199625_1_alg».proof.Proof.Gen.Kernel.Points
import proofs.«163706_j46858093199625_1_alg».proof.Proof.Gen.Kernel.Frame
import proofs.«163706_j46858093199625_1_alg».proof.Proof.Gen.KernelIdeal
import proofs.«163706_j46858093199625_1_alg».proof.Proof.Gen.KernelIdeal.Skeleton
import proofs.«163706_j46858093199625_1_alg».proof.Proof.Gen.KernelIdeal.Launch
import proofs.«163706_j46858093199625_1_alg».proof.Proof.Gen.KernelIdeal.Points
import proofs.«163706_j46858093199625_1_alg».proof.Proof.Gen.KernelIdeal.Frame
import proofs.«163706_j46858093199625_1_alg».proof.Proof.Gen.ReferenceIdeal
import proofs.«163706_j46858093199625_1_alg».proof.Proof.Gen.Pre_finite_inputs
import proofs.«163706_j46858093199625_1_alg».proof.Proof.RefOps
import proofs.«163706_j46858093199625_1_alg».proof.Proof.RefRun
import proofs.«163706_j46858093199625_1_alg».proof.Proof.KernelRun
import proofs.«163706_j46858093199625_1_alg».proof.Proof.Bridge
import Idealize.ShloMosaic.Adequacy
import Idealize.ShloMosaic.Init

noncomputable section

namespace Cert.Proof

open Idealize.ShloMosaic Idealize.SL.Sem Idealize.ShloMosaic.StableHlo

/-- The kernel program as printed runs and leaves its arguments as launched. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Hand.run m ρ)

/-- The idealised kernel program is the printed one read at the extended reals: no operation was rewritten. -/
theorem preserves : Cert.preserves_Kernel_KernelIdeal := trivial

/-- From memories agreeing on the arguments both programs end with the same values in their result buffers: the
    kernel program's last boundary contents there, which are the reference's fold of its operations read at its
    result. -/
theorem algebraic : Cert.algebraic_KernelIdeal_ReferenceIdeal := by
  intro m ρ m' ρ' _ hagree
  refine ⟨fun c => Cert.KernelIdeal.Gen.W14 m ρ c (Proc.devRef .tc Cert.KernelIdeal.main_v106),
    Cert.KernelIdeal.Whole.run_whole m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8⟩ := hagree c
  exact (Cert.Sim.result_eq m ρ c (launchContents m' c)
    ⟨h0.symm, h1.symm, h2.symm, h3.symm, h4.symm, h5.symm, h6.symm, h7.symm, h8.symm⟩).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
